-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v82)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v82) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v100) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S3x128x128 : Shape := ⟨3, ![3, 128, 128]⟩
abbrev S3x128 : Shape := ⟨2, ![3, 128]⟩
abbrev S64x128 : Shape := ⟨2, ![64, 128]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64x128 .f32) (main_arg6 : FVec F S64 .f32) (main_v13 : IVec S_ 1) (main_v16 : IVec S3x128x128 1) : IVec S_ 1 :=
  let main_c_5 : IVec S_ 1 := constantI S_ 1 1#1
  let main_v17 : IVec S_ 1 := (fun x v => Host.reduce IntOp.andi x v reducesTo_S3x128x128_S_d0_1_2 h_S_) main_v16 main_c_5
  let main_v18 : IVec S_ 1 := andi main_v13 main_v17
  let main_v19 : FVec F S64x128 .f32 := Host.absf main_arg5
  let main_cst_6 : FVec F S_ .f32 := constant S_ .f32 0x7F800000#32
  let main_v20 : FVec F S64x128 .f32 := broadcastInDim S64x128 ![] bcast_S_S64x128 main_cst_6
  let main_v21 : IVec S64x128 1 := cmpf .olt main_v19 main_v20
  let main_c_7 : IVec S_ 1 := constantI S_ 1 1#1
  let main_v22 : IVec S_ 1 := (fun x v => Host.reduce IntOp.andi x v reducesTo_S64x128_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  main_v28

def fn {F : FTy → Type} [FloatOps F] (main_arg0 : FVec F S100000x128 .f32) (main_arg1 : IVec S2x1600000 32) (main_arg2 : FVec F S3x128x128 .f32) (main_arg3 : FVec F S3x128 .f32) (main_arg4 : FVec F S3x128x128 .f32) (main_arg5 : FVec F S64x128 .f32) (main_arg6 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S3x128x128 .f32 := Host.absf main_arg2
  let main_cst_0 : FVec F S_ .f32 := constant S_ .f32 0x7F800000#32
  let main_v5 : FVec F S3x128x128 .f32 := broadcastInDim S3x128x128 ![] bcast_S_S3x128x128 main_cst_0
  let main_v6 : IVec S3x128x128 1 := cmpf .olt main_v4 main_v5
  let main_c_1 : IVec S_ 1 := constantI S_ 1 1#1
  let main_v7 : IVec S_ 1 := (fun x v => Host.reduce IntOp.andi x v reducesTo_S3x128x128_S_d0_1_2 h_S_) main_v6 main_c_1
  let main_v8 : IVec S_ 1 := andi main_v3 main_v7
  let main_v9 : FVec F S3x128 .f32 := Host.absf main_arg3
  let main_cst_2 : FVec F S_ .f32 := constant S_ .f32 0x7F800000#32
  let main_v10 : FVec F S3x128 .f32 := broadcastInDim S3x128 ![] bcast_S_S3x128 main_cst_2
  let main_v11 : IVec S3x128 1 := cmpf .olt main_v9 main_v10
  let main_c_3 : IVec S_ 1 := constantI S_ 1 1#1
  let main_v12 : IVec S_ 1 := (fun x v => Host.reduce IntOp.andi x v reducesTo_S3x128_S_d0_1 h_S_) main_v11 main_c_3
  let main_v13 : IVec S_ 1 := andi main_v8 main_v12
  let main_v14 : FVec F S3x128x128 .f32 := Host.absf main_arg4
  let main_cst_4 : FVec F S_ .f32 := constant S_ .f32 0x7F800000#32
  let main_v15 : FVec F S3x128x128 .f32 := broadcastInDim S3x128x128 ![] bcast_S_S3x128x128 main_cst_4
  let main_v16 : IVec S3x128x128 1 := cmpf .olt main_v14 main_v15
  fn_part1 (F := F) main_arg5 main_arg6 main_v13 main_v16
-- ==== Kernel.lean ====
abbrev S100000x128 : Shape := ⟨2, ![100000, 128]⟩
abbrev S2x1600000 : Shape := ⟨2, ![2, 1600000]⟩
abbrev S3x128x128 : Shape := ⟨3, ![3, 128, 128]⟩
abbrev S3x128 : Shape := ⟨2, ![3, 128]⟩
abbrev S64x128 : Shape := ⟨2, ![64, 128]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1600000x128 : Shape := ⟨2, ![1600000, 128]⟩
abbrev S100000x1 : Shape := ⟨2, ![100000, 1]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S5000x128 : Shape := ⟨2, ![5000, 128]⟩
abbrev S128x64 : Shape := ⟨2, ![128, 64]⟩
abbrev S1 : Shape := ⟨1, ![1]⟩
abbrev S100000x64 : Shape := ⟨2, ![100000, 64]⟩

abbrev nBuf : Space → Nat
  | .hbm => 107
  | .vmem => 33
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S3x128x128, .f32⟩
  | .hbm, ⟨3, _⟩ => ⟨S3x128, .f32⟩
  | .hbm, ⟨4, _⟩ => ⟨S3x128x128, .f32⟩
  | .hbm, ⟨5, _⟩ => ⟨S64x128, .f32⟩
  | .hbm, ⟨6, _⟩ => ⟨S64, .f32⟩
  | .hbm, ⟨7, _⟩ => ⟨S1x1600000, .i32⟩
  | .hbm, ⟨8, _⟩ => ⟨S1600000, .i32⟩
  | .hbm, ⟨9, _⟩ => ⟨S1x1600000, .i32⟩
  | .hbm, ⟨10, _⟩ => ⟨S1600000, .i32⟩
  | .hbm, ⟨11, _⟩ => ⟨S_, .f32⟩
  | .hbm, ⟨12, _⟩ => ⟨S1600000, .f32⟩
  | .hbm, ⟨13, _⟩ => ⟨S_, .f32⟩
  | .hbm, ⟨14, _⟩ => ⟨S100000, .f32⟩
  | .hbm, ⟨15, _⟩ => ⟨S1600000x1, .i32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .f32⟩
  | .hbm, ⟨23, _⟩ => ⟨S3x128x128, .f32⟩
  | .hbm, ⟨24, _⟩ => ⟨S3x128x128, .f32⟩
  | .hbm, ⟨25, _⟩ => ⟨S_, .i32⟩
  | .hbm, ⟨26, _⟩ => ⟨S1600000, .i32⟩
  | .hbm, ⟨27, _⟩ => ⟨S1600000, .i1⟩
  | .hbm, ⟨28, _⟩ => ⟨S_, .i32⟩
  | .hbm, ⟨29, _⟩ => ⟨S1600000, .i32⟩
  | .hbm, ⟨30, _⟩ => ⟨S1600000, .i32⟩
  | .hbm, ⟨31, _⟩ => ⟨S1600000, .i32⟩
  | .hbm, ⟨32, _⟩ => ⟨S1600000x1, .i32⟩
  | .hbm, ⟨33, _⟩ => ⟨S1600000x128, .f32⟩
  | .hbm, ⟨34, _⟩ => ⟨S_, .f32⟩
  | .hbm, ⟨35, _⟩ => ⟨S100000x128, .f32⟩
  | .hbm, ⟨36, _⟩ => ⟨S1600000x1, .i32⟩
  | .hbm, ⟨37, _⟩ => ⟨S100000x128, .f32⟩
  | .hbm, ⟨38, _⟩ => ⟨S100000x1, .f32⟩
  | .hbm, ⟨39, _⟩ => ⟨S100000x128, .f32⟩
  | .hbm, ⟨40, _⟩ => ⟨S100000x128, .f32⟩
  | .hbm, ⟨41, _⟩ => ⟨S1x128x128, .f32⟩
  | .hbm, ⟨42, _⟩ => ⟨S128x128, .f32⟩
  | .hbm, ⟨43, _⟩ => ⟨S1x128x128, .f32⟩
  | .hbm, ⟨44, _⟩ => ⟨S128x128, .f32⟩
  | .hbm, ⟨45, _⟩ => ⟨S1x128, .f32⟩
  | .hbm, ⟨46, _⟩ => ⟨S128, .f32⟩
  | .hbm, ⟨47, _⟩ => ⟨S100000x128, .f32⟩
  | .hbm, ⟨48, _⟩ => ⟨S_, .i32⟩
  | .hbm, ⟨49, _⟩ => ⟨S1600000, .i32⟩
  | .hbm, ⟨50, _⟩ => ⟨S1600000, .i1⟩
  | .hbm, ⟨51, _⟩ => ⟨S_, .i32⟩
  | .hbm, ⟨52, _⟩ => ⟨S1600000, .i32⟩
  | .hbm, ⟨53, _⟩ => ⟨S1600000, .i32⟩
  | .hbm, ⟨54, _⟩ => ⟨S1600000, .i32⟩
  | .hbm, ⟨55, _⟩ => ⟨S1600000x1, .i32⟩
  | .hbm, ⟨56, _⟩ => ⟨S1600000x128, .f32⟩
  | .hbm, ⟨57, _⟩ => ⟨S_, .f32⟩
  | .hbm, ⟨58, _⟩ => ⟨S100000x128, .f32⟩
  | .hbm, ⟨59, _⟩ => ⟨S1600000x1, .i32⟩
  | .hbm, ⟨60, _⟩ => ⟨S100000x128, .f32⟩
  | .hbm, ⟨61, _⟩ => ⟨S100000x1, .f32⟩
  | .hbm, ⟨62, _⟩ => ⟨S100000x128, .f32⟩
  | .hbm, ⟨63, _⟩ => ⟨S100000x128, .f32⟩
  | .hbm, ⟨64, _⟩ => ⟨S1x128x128, .f32⟩
  | .hbm, ⟨65, _⟩ => ⟨S128x128, .f32⟩
  | .hbm, ⟨66, _⟩ => ⟨S1x128x128, .f32⟩
  | .hbm, ⟨67, _⟩ => ⟨S128x128, .f32⟩
  | .hbm, ⟨68, _⟩ => ⟨S1x128, .f32⟩
  | .hbm, ⟨69, _⟩ => ⟨S128, .f32⟩
  | .hbm, ⟨70, _⟩ => ⟨S100000x128, .f32⟩
  | .hbm, ⟨71, _⟩ => ⟨S_, .i32⟩
  | .hbm, ⟨72, _⟩ => ⟨S1600000, .i32⟩
  | .hbm, ⟨73, _⟩ => ⟨S1600000, .i1⟩
  | .hbm, ⟨74, _⟩ => ⟨S_, .i32⟩
  | .hbm, ⟨75, _⟩ => ⟨S1600000, .i32⟩
  | .hbm, ⟨76, _⟩ => ⟨S1600000, .i32⟩
  | .hbm, ⟨77, _⟩ => ⟨S1600000, .i32⟩
  | .hbm, ⟨78, _⟩ => ⟨S1600000x1, .i32⟩
  | .hbm, ⟨79, _⟩ => ⟨S1600000x128, .f32⟩
  | .hbm, ⟨80, _⟩ => ⟨S_, .f32⟩
  | .hbm, ⟨81, _⟩ => ⟨S100000x128, .f32⟩
  | .hbm, ⟨82, _⟩ => ⟨S1600000x1, .i32⟩
  | .hbm, ⟨83, _⟩ => ⟨S100000x128, .f32⟩
  | .hbm, ⟨84, _⟩ => ⟨S100000x1, .f32⟩
  | .hbm, ⟨85, _⟩ => ⟨S100000x128, .f32⟩
  | .hbm, ⟨86, _⟩ => ⟨S100000x128, .f32⟩
  | .hbm, ⟨87, _⟩ => ⟨S1x128x128, .f32⟩
  | .hbm, ⟨88, _⟩ => ⟨S128x128, .f32⟩
  | .hbm, ⟨89, _⟩ => ⟨S1x128x128, .f32⟩
  | .hbm, ⟨90, _⟩ => ⟨S128x128, .f32⟩
  | .hbm, ⟨91, _⟩ => ⟨S1x128, .f32⟩
  | .hbm, ⟨92, _⟩ => ⟨S128, .f32⟩
  | .hbm, ⟨93, _⟩ => ⟨S100000x128, .f32⟩
  | .hbm, ⟨94, _⟩ => ⟨S_, .f32⟩
  | .hbm, ⟨95, _⟩ => ⟨S128x128, .f32⟩
  | .hbm, ⟨96, _⟩ => ⟨S128x64, .f32⟩
  | .hbm, ⟨97, _⟩ => ⟨S_, .i32⟩
  | .hbm, ⟨98, _⟩ => ⟨S1, .i32⟩
  | .hbm, ⟨99, _⟩ => ⟨S128x128, .f32⟩
  | .hbm, ⟨100, _⟩ => ⟨S_, .f32⟩
  | .hbm, ⟨101, _⟩ => ⟨S128, .f32⟩
  | .hbm, ⟨102, _⟩ => ⟨S_, .i32⟩
  | .hbm, ⟨103, _⟩ => ⟨S1, .i32⟩
  | .hbm, ⟨104, _⟩ => ⟨S128, .f32⟩
  | .hbm, ⟨105, _⟩ => ⟨S100000x128, .f32⟩
  | .hbm, ⟨106, _⟩ => ⟨S100000x64, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S128x128, .f32⟩
  | .local _ .vmem, ⟨6, _⟩ => ⟨S128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x128, .f32⟩
  | .local _ .vmem, ⟨14, _⟩ => ⟨S128x128, .f32⟩
  | .local _ .vmem, ⟨15, _⟩ => ⟨S128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S128x128, .f32⟩
  | .local _ .vmem, ⟨23, _⟩ => ⟨S128x128, .f32⟩
  | .local _ .vmem, ⟨24, _⟩ => ⟨S128, .f32⟩
  | .local _ .vmem, ⟨25, _⟩ => ⟨S5000x128, .f32⟩
  | .local _ .vmem, ⟨26, _⟩ => ⟨S5000x128, .f32⟩
  | .local _ .vmem, ⟨27, _⟩ => ⟨S5000x128, .f32⟩
  | .local _ .vmem, ⟨28, _⟩ => ⟨S5000x128, .f32⟩
  | .local _ .vmem, ⟨29, _⟩ => ⟨S128x128, .f32⟩
  | .local _ .vmem, ⟨30, _⟩ => ⟨S128, .f32⟩
  | .local _ .vmem, ⟨31, _⟩ => ⟨S5000x128, .f32⟩
  | .local _ .vmem, ⟨32, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_cst_2 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_c : Ref sig .tc := ⟨.hbm, 25, rfl⟩
abbrev main_v14 : Ref sig .tc := ⟨.hbm, 26, rfl⟩
abbrev main_v15 : Ref sig .tc := ⟨.hbm, 27, rfl⟩
abbrev main_c_3 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_4 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_c_5 : Ref sig .tc := ⟨.hbm, 48, rfl⟩
abbrev main_v34 : Ref sig .tc := ⟨.hbm, 49, rfl⟩
abbrev main_v35 : Ref sig .tc := ⟨.hbm, 50, rfl⟩
abbrev main_c_6 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_7 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_c_8 : Ref sig .tc := ⟨.hbm, 71, rfl⟩
abbrev main_v54 : Ref sig .tc := ⟨.hbm, 72, rfl⟩
abbrev main_v55 : Ref sig .tc := ⟨.hbm, 73, rfl⟩
abbrev main_c_9 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_cst_10 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_cst_11 : Ref sig .tc := ⟨.hbm, 94, rfl⟩
abbrev main_v74 : Ref sig .tc := ⟨.hbm, 95, rfl⟩
abbrev main_v75 : Ref sig .tc := ⟨.hbm, 96, rfl⟩
abbrev main_c_12 : Ref sig .tc := ⟨.hbm, 97, rfl⟩
abbrev main_v76 : Ref sig .tc := ⟨.hbm, 98, rfl⟩
abbrev main_v77 : Ref sig .tc := ⟨.hbm, 99, rfl⟩
abbrev main_cst_13 : Ref sig .tc := ⟨.hbm, 100, rfl⟩
abbrev main_v78 : Ref sig .tc := ⟨.hbm, 101, rfl⟩
abbrev main_c_14 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg2_0 : Ref sig .tc := ⟨.vmem, 30, rfl⟩
abbrev cc3_stg3_0 : Ref sig .tc := ⟨.vmem, 31, rfl⟩
abbrev cc3_stg3_1 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26
abbrev cc3_sem0_0 : DmaSem sig := 27
abbrev cc3_sem0_1 : DmaSem sig := 28
abbrev cc3_sem1_0 : DmaSem sig := 29
abbrev cc3_sem2_0 : DmaSem sig := 30
abbrev cc3_sem3_0 : DmaSem sig := 31
abbrev cc3_sem3_1 : DmaSem sig := 32

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  transposes_S3x128x128_S3x128x128_0_2_1 : S3x128x128.Transposes [0, 2, 1] S3x128x128
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128_S128_0 : ∀ a, (![0] : Fin 1 → Nat) a + S128.size a ≤ S128.size a
  h_S128 : 0 < S128.numel
  shapeCasts_S128_S128 : S128.ShapeCasts S128
  shapeCasts_S128_S1x128 : S128.ShapeCasts S1x128
  broadcasts_S1x128_S5000x128 : S1x128.Broadcasts S5000x128
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  bcast_S_S128x128 : S_.BroadcastsInDim S128x128 (![] : Fin 0 → Fin S128x128.rank)
  transposes_S64x128_S128x64_1_0 : S64x128.Transposes [1, 0] S128x64
  bcast_S_S1 : S_.BroadcastsInDim S1 (![] : Fin 0 → Fin S1.rank)
  bcast_S_S128 : S_.BroadcastsInDim S128 (![] : Fin 0 → Fin S128.rank)
  slices_S100000x128_S100000x64_0_0 : S100000x128.Slices ![0, 0] S100000x64
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  scatter_S128x128_S1_S128x64_01_n_1_0_wf : ScatterDims.WF S128x128 S1 S128x64 [0, 1] [] [1] 0
  scatter_S128_S1_S64_0_n_0_0_wf : ScatterDims.WF S128 S1 S64 [0] [] [0] 0
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S100000x128.size a
  hwx1_5 : ∀ i : grid1.Coords, EltTy.bits .f32 = 32 ∨ (Rect.block (s := S100000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S100000x128.size a
  hwx2_1 : ∀ i : grid2.Coords, EltTy.bits .f32 = 32 ∨ (Rect.block (s := S100000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128.size a ≤ S128.size a
  hwx2_4 : ∀ i : grid2.Coords, EltTy.bits .f32 = 32 ∨ (Rect.block (s := S128) S128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S100000x128.size a
  hwx2_5 : ∀ i : grid2.Coords, EltTy.bits .f32 = 32 ∨ (Rect.block (s := S100000x128) S5000x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128.size a ≤ S128.size a
  hwx3_2 : ∀ i : grid3.Coords, EltTy.bits .f32 = 32 ∨ (Rect.block (s := S128) S128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x128.size a ≤ S100000x128.size a
  hwx3_3 : ∀ i : grid3.Coords, EltTy.bits .f32 = 32 ∨ (Rect.block (s := S100000x128) S5000x128.size (cc3_transform_3 i) (hinb3_3 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S128x128_S1_S128x64_01_n_1_0 : ScatterDims S128x128 S1 S128x64 where
  updateWindowDims := [0, 1]
  insertedWindowDims := []
  scatterDimsToOperandDims := [1]
  indexVectorDim := 0
  wf := scatter_S128x128_S1_S128x64_01_n_1_0_wf
def scatter_S128_S1_S64_0_n_0_0 : ScatterDims S128 S1 S64 where
  updateWindowDims := [0]
  insertedWindowDims := []
  scatterDimsToOperandDims := [0]
  indexVectorDim := 0
  wf := scatter_S128_S1_S64_0_n_0_0_wf

abbrev win0_0 : Pipeline.Window sig grid0 :=
  Pipeline.Window.ofSpec (Memref.whole main_v26) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v28) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v30) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v32) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v33) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v46) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v33) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v48) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v50) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v52) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v53) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v66) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v53) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v68) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v70) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v72) S128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v73) S5000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v73) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v77) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v80) S128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v81) S5000x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S3x128x128 : Shape := ⟨3, ![3, 128, 128]⟩
abbrev S3x128 : Shape := ⟨2, ![3, 128]⟩
abbrev S64x128 : Shape := ⟨2, ![64, 128]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S1600000x128 : Shape := ⟨2, ![1600000, 128]⟩
abbrev S100000x1 : Shape := ⟨2, ![100000, 1]⟩
abbrev S128x64 : Shape := ⟨2, ![128, 64]⟩
abbrev S100000x64 : Shape := ⟨2, ![100000, 64]⟩
abbrev S1x64 : Shape := ⟨2, ![1, 64]⟩

abbrev nBuf : Space → Nat
  | .hbm => 127
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S3x128x128, .f32⟩
  | .hbm, ⟨3, _⟩ => ⟨S3x128, .f32⟩
  | .hbm, ⟨4, _⟩ => ⟨S3x128x128, .f32⟩
  | .hbm, ⟨5, _⟩ => ⟨S64x128, .f32⟩
  | .hbm, ⟨6, _⟩ => ⟨S64, .f32⟩
  | .hbm, ⟨7, _⟩ => ⟨S1x1600000, .i32⟩
  | .hbm, ⟨8, _⟩ => ⟨S1600000, .i32⟩
  | .hbm, ⟨9, _⟩ => ⟨S1x1600000, .i32⟩
  | .hbm, ⟨10, _⟩ => ⟨S1600000, .i32⟩
  | .hbm, ⟨11, _⟩ => ⟨S_, .f32⟩
  | .hbm, ⟨12, _⟩ => ⟨S1600000, .f32⟩
  | .hbm, ⟨13, _⟩ => ⟨S_, .f32⟩
  | .hbm, ⟨14, _⟩ => ⟨S100000, .f32⟩
  | .hbm, ⟨15, _⟩ => ⟨S1600000x1, .i32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .f32⟩
  | .hbm, ⟨23, _⟩ => ⟨S1x128x128, .f32⟩
  | .hbm, ⟨24, _⟩ => ⟨S128x128, .f32⟩
  | .hbm, ⟨25, _⟩ => ⟨S1x128, .f32⟩
  | .hbm, ⟨26, _⟩ => ⟨S128, .f32⟩
  | .hbm, ⟨27, _⟩ => ⟨S1x128x128, .f32⟩
  | .hbm, ⟨28, _⟩ => ⟨S128x128, .f32⟩
  | .hbm, ⟨29, _⟩ => ⟨S_, .i32⟩
  | .hbm, ⟨30, _⟩ => ⟨S1600000, .i32⟩
  | .hbm, ⟨31, _⟩ => ⟨S1600000, .i1⟩
  | .hbm, ⟨32, _⟩ => ⟨S_, .i32⟩
  | .hbm, ⟨33, _⟩ => ⟨S1600000, .i32⟩
  | .hbm, ⟨34, _⟩ => ⟨S1600000, .i32⟩
  | .hbm, ⟨35, _⟩ => ⟨S1600000, .i32⟩
  | .hbm, ⟨36, _⟩ => ⟨S1600000x1, .i32⟩
  | .hbm, ⟨37, _⟩ => ⟨S1600000x128, .f32⟩
  | .hbm, ⟨38, _⟩ => ⟨S_, .f32⟩
  | .hbm, ⟨39, _⟩ => ⟨S100000x128, .f32⟩
  | .hbm, ⟨40, _⟩ => ⟨S1600000x1, .i32⟩
  | .hbm, ⟨41, _⟩ => ⟨S100000x128, .f32⟩
  | .hbm, ⟨42, _⟩ => ⟨S100000x1, .f32⟩
  | .hbm, ⟨43, _⟩ => ⟨S100000x128, .f32⟩
  | .hbm, ⟨44, _⟩ => ⟨S100000x128, .f32⟩
  | .hbm, ⟨45, _⟩ => ⟨S128x128, .f32⟩
  | .hbm, ⟨46, _⟩ => ⟨S100000x128, .f32⟩
  | .hbm, ⟨47, _⟩ => ⟨S1x128, .f32⟩
  | .hbm, ⟨48, _⟩ => ⟨S100000x128, .f32⟩
  | .hbm, ⟨49, _⟩ => ⟨S100000x128, .f32⟩
  | .hbm, ⟨50, _⟩ => ⟨S128x128, .f32⟩
  | .hbm, ⟨51, _⟩ => ⟨S100000x128, .f32⟩
  | .hbm, ⟨52, _⟩ => ⟨S100000x128, .f32⟩
  | .hbm, ⟨53, _⟩ => ⟨S_, .f32⟩
  | .hbm, ⟨54, _⟩ => ⟨S100000x128, .f32⟩
  | .hbm, ⟨55, _⟩ => ⟨S100000x128, .f32⟩
  | .hbm, ⟨56, _⟩ => ⟨S1x128x128, .f32⟩
  | .hbm, ⟨57, _⟩ => ⟨S128x128, .f32⟩
  | .hbm, ⟨58, _⟩ => ⟨S1x128, .f32⟩
  | .hbm, ⟨59, _⟩ => ⟨S128, .f32⟩
  | .hbm, ⟨60, _⟩ => ⟨S1x128x128, .f32⟩
  | .hbm, ⟨61, _⟩ => ⟨S128x128, .f32⟩
  | .hbm, ⟨62, _⟩ => ⟨S_, .i32⟩
  | .hbm, ⟨63, _⟩ => ⟨S1600000, .i32⟩
  | .hbm, ⟨64, _⟩ => ⟨S1600000, .i1⟩
  | .hbm, ⟨65, _⟩ => ⟨S_, .i32⟩
  | .hbm, ⟨66, _⟩ => ⟨S1600000, .i32⟩
  | .hbm, ⟨67, _⟩ => ⟨S1600000, .i32⟩
  | .hbm, ⟨68, _⟩ => ⟨S1600000, .i32⟩
  | .hbm, ⟨69, _⟩ => ⟨S1600000x1, .i32⟩
  | .hbm, ⟨70, _⟩ => ⟨S1600000x128, .f32⟩
  | .hbm, ⟨71, _⟩ => ⟨S_, .f32⟩
  | .hbm, ⟨72, _⟩ => ⟨S100000x128, .f32⟩
  | .hbm, ⟨73, _⟩ => ⟨S1600000x1, .i32⟩
  | .hbm, ⟨74, _⟩ => ⟨S100000x128, .f32⟩
  | .hbm, ⟨75, _⟩ => ⟨S100000x1, .f32⟩
  | .hbm, ⟨76, _⟩ => ⟨S100000x128, .f32⟩
  | .hbm, ⟨77, _⟩ => ⟨S100000x128, .f32⟩
  | .hbm, ⟨78, _⟩ => ⟨S128x128, .f32⟩
  | .hbm, ⟨79, _⟩ => ⟨S100000x128, .f32⟩
  | .hbm, ⟨80, _⟩ => ⟨S1x128, .f32⟩
  | .hbm, ⟨81, _⟩ => ⟨S100000x128, .f32⟩
  | .hbm, ⟨82, _⟩ => ⟨S100000x128, .f32⟩
  | .hbm, ⟨83, _⟩ => ⟨S128x128, .f32⟩
  | .hbm, ⟨84, _⟩ => ⟨S100000x128, .f32⟩
  | .hbm, ⟨85, _⟩ => ⟨S100000x128, .f32⟩
  | .hbm, ⟨86, _⟩ => ⟨S_, .f32⟩
  | .hbm, ⟨87, _⟩ => ⟨S100000x128, .f32⟩
  | .hbm, ⟨88, _⟩ => ⟨S100000x128, .f32⟩
  | .hbm, ⟨89, _⟩ => ⟨S1x128x128, .f32⟩
  | .hbm, ⟨90, _⟩ => ⟨S128x128, .f32⟩
  | .hbm, ⟨91, _⟩ => ⟨S1x128, .f32⟩
  | .hbm, ⟨92, _⟩ => ⟨S128, .f32⟩
  | .hbm, ⟨93, _⟩ => ⟨S1x128x128, .f32⟩
  | .hbm, ⟨94, _⟩ => ⟨S128x128, .f32⟩
  | .hbm, ⟨95, _⟩ => ⟨S_, .i32⟩
  | .hbm, ⟨96, _⟩ => ⟨S1600000, .i32⟩
  | .hbm, ⟨97, _⟩ => ⟨S1600000, .i1⟩
  | .hbm, ⟨98, _⟩ => ⟨S_, .i32⟩
  | .hbm, ⟨99, _⟩ => ⟨S1600000, .i32⟩
  | .hbm, ⟨100, _⟩ => ⟨S1600000, .i32⟩
  | .hbm, ⟨101, _⟩ => ⟨S1600000, .i32⟩
  | .hbm, ⟨102, _⟩ => ⟨S1600000x1, .i32⟩
  | .hbm, ⟨103, _⟩ => ⟨S1600000x128, .f32⟩
  | .hbm, ⟨104, _⟩ => ⟨S_, .f32⟩
  | .hbm, ⟨105, _⟩ => ⟨S100000x128, .f32⟩
  | .hbm, ⟨106, _⟩ => ⟨S1600000x1, .i32⟩
  | .hbm, ⟨107, _⟩ => ⟨S100000x128, .f32⟩
  | .hbm, ⟨108, _⟩ => ⟨S100000x1, .f32⟩
  | .hbm, ⟨109, _⟩ => ⟨S100000x128, .f32⟩
  | .hbm, ⟨110, _⟩ => ⟨S100000x128, .f32⟩
  | .hbm, ⟨111, _⟩ => ⟨S128x128, .f32⟩
  | .hbm, ⟨112, _⟩ => ⟨S100000x128, .f32⟩
  | .hbm, ⟨113, _⟩ => ⟨S1x128, .f32⟩
  | .hbm, ⟨114, _⟩ => ⟨S100000x128, .f32⟩
  | .hbm, ⟨115, _⟩ => ⟨S100000x128, .f32⟩
  | .hbm, ⟨116, _⟩ => ⟨S128x128, .f32⟩
  | .hbm, ⟨117, _⟩ => ⟨S100000x128, .f32⟩
  | .hbm, ⟨118, _⟩ => ⟨S100000x128, .f32⟩
  | .hbm, ⟨119, _⟩ => ⟨S_, .f32⟩
  | .hbm, ⟨120, _⟩ => ⟨S100000x128, .f32⟩
  | .hbm, ⟨121, _⟩ => ⟨S100000x128, .f32⟩
  | .hbm, ⟨122, _⟩ => ⟨S128x64, .f32⟩
  | .hbm, ⟨123, _⟩ => ⟨S100000x64, .f32⟩
  | .hbm, ⟨124, _⟩ => ⟨S1x64, .f32⟩
  | .hbm, ⟨125, _⟩ => ⟨S100000x64, .f32⟩
  | .hbm, ⟨126, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_cst_2 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_c : Ref sig .tc := ⟨.hbm, 29, rfl⟩
abbrev main_v18 : Ref sig .tc := ⟨.hbm, 30, rfl⟩
abbrev main_v19 : Ref sig .tc := ⟨.hbm, 31, rfl⟩
abbrev main_c_3 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_4 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_call0_cst : Ref sig .tc := ⟨.hbm, 53, rfl⟩
abbrev main_call0_v0 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_c_5 : Ref sig .tc := ⟨.hbm, 62, rfl⟩
abbrev main_v46 : Ref sig .tc := ⟨.hbm, 63, rfl⟩
abbrev main_v47 : Ref sig .tc := ⟨.hbm, 64, rfl⟩
abbrev main_c_6 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_cst_7 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_call1_cst : Ref sig .tc := ⟨.hbm, 86, rfl⟩
abbrev main_call1_v0 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_c_8 : Ref sig .tc := ⟨.hbm, 95, rfl⟩
abbrev main_v74 : Ref sig .tc := ⟨.hbm, 96, rfl⟩
abbrev main_v75 : Ref sig .tc := ⟨.hbm, 97, rfl⟩
abbrev main_c_9 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_cst_10 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_call2_cst : Ref sig .tc := ⟨.hbm, 119, rfl⟩
abbrev main_call2_v0 : Ref sig .tc := ⟨.hbm, 120, rfl⟩
abbrev main_v95 : Ref sig .tc := ⟨.hbm, 121, rfl⟩
abbrev main_v96 : Ref sig .tc := ⟨.hbm, 122, rfl⟩
abbrev main_v97 : Ref sig .tc := ⟨.hbm, 123, rfl⟩
abbrev main_v98 : Ref sig .tc := ⟨.hbm, 124, rfl⟩
abbrev main_v99 : Ref sig .tc := ⟨.hbm, 125, rfl⟩
abbrev main_v100 : Ref sig .tc := ⟨.hbm, 126, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  transposes_S64x128_S128x64_1_0 : S64x128.Transposes [1, 0] S128x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  dot_S100000x128_S128x64_S100000x64_1_0_0_1_n_n_wf : DotDims.WF S100000x128 S128x64 S100000x64 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf

class Facts : Prop extends Facts₀ where

variable [Facts]
-- ==== Proof.Spec.lean ====
import proofs.«112709_j37056977830621_1_alg».proof.Proof.Gen.KernelIdeal
import proofs.«112709_j37056977830621_1_alg».proof.Proof.Gen.ReferenceIdeal
import Idealize.ShloMosaic.PureOps.Ideal
import Idealize.ShloMosaic.Lib.ValueIdx

/-!
# The network as whole-array functions

Three mean-aggregating graph layers and a linear read-out, on the extended reals.

* `layerG`: entry (p, q) of a layer is max((Σₖ a(p,k)·wl(k,q) + Σₖ h(p,k)·wr(k,q)) + b(q), 0), where `a` is the
  mean of the neighbours' rows, `h` the nodes' own rows, and `wl`, `wr` are laid out contraction axis first.
* `outG`: entry (p, q) of the read-out is Σₖ h(p,k)·w(k,q) + b(q).
* `aggK` / `aggR`: the neighbour mean as the host operations spell it (gather the source rows, add them into the
  target rows, scale each row by 1 / max(in-degree, 1)); the two programs spell it identically.
* `kernelSpec` / `refSpec`: the two programs' results as compositions of these.
-/

noncomputable section

open scoped BigOperators

namespace Cert.Sage

open Idealize.ShloMosaic Idealize.ShloMosaic.ValueIdx

section K
open Cert.KernelIdeal Cert.KernelIdeal.Facts₀

/-- One layer at entry (p, q): both matrix products summed, the bias added, the result clamped below at zero. -/
def layerAt (a h : FVec Ideal S100000x128 .f32) (wl wr : FVec Ideal S128x128 .f32) (b : FVec Ideal S128 .f32)
    (p : Fin 100000) (q : Fin 128) : EReal :=
  max (((∑ k : Fin 128, a (ix2 p k) * wl (ix2 k q)) + (∑ k : Fin 128, h (ix2 p k) * wr (ix2 k q))) + b (ix1 q))
    (Ideal.ofBits .f32 0x00000000#32)

/-- One layer as a whole array. -/
def layerG (a h : FVec Ideal S100000x128 .f32) (wl wr : FVec Ideal S128x128 .f32) (b : FVec Ideal S128 .f32) :
    FVec Ideal S100000x128 .f32 :=
  fun i => layerAt a h wl wr b (i 0) (i 1)

/-- The read-out at entry (p, q). -/
def outAt (h : FVec Ideal S100000x128 .f32) (w : FVec Ideal S128x128 .f32) (b : FVec Ideal S128 .f32)
    (p : Fin 100000) (q : Fin 128) : EReal :=
  (∑ k : Fin 128, h (ix2 p k) * w (ix2 k q)) + b (ix1 q)

/-- The read-out as a whole array (128 columns, the upper 64 of them padding). -/
def outG (h : FVec Ideal S100000x128 .f32) (w : FVec Ideal S128x128 .f32) (b : FVec Ideal S128 .f32) :
    FVec Ideal S100000x128 .f32 :=
  fun i => outAt h w b (i 0) (i 1)

/-- The edges' source nodes. -/
def srcK (ei : IVec S2x1600000 32) : IVec S1600000 32 :=
  shapeCast _ (extractStridedSlice S1x1600000 ![0, 0] ei slices_S2x1600000_S1x1600000_0_0) shapeCasts_S1x1600000_S1600000

/-- The edges' target nodes. -/
def dstK (ei : IVec S2x1600000 32) : IVec S1600000 32 :=
  shapeCast _ (extractStridedSlice S1x1600000 ![1, 0] ei slices_S2x1600000_S1x1600000_1_0) shapeCasts_S1x1600000_S1600000

/-- 1 / max(in-degree, 1) per node. -/
def invK (ei : IVec S2x1600000 32) : FVec Ideal S100000 .f32 :=
  Host.divf (broadcastInDim S100000 ![] bcast_S_S100000 (constant S_ .f32 0x3F800000#32))
    (maximumf
      (Host.scatterAdd scatter_S100000_S1600000x1_S1600000_n_0_0_1
        (broadcastInDim S100000 ![] bcast_S_S100000 (constant S_ .f32 0x00000000#32))
        (broadcastInDim S1600000x1 ![0] bcast_S1600000_S1600000x1_0 (dstK ei))
        (broadcastInDim S1600000 ![] bcast_S_S1600000 (constant S_ .f32 0x3F800000#32)))
      (broadcastInDim S100000 ![] bcast_S_S100000 (constant S_ .f32 0x3F800000#32)))

/-- The source column the gather reads: a negative node number counted from the end. -/
def srcColK (ei : IVec S2x1600000 32) : IVec S1600000x1 32 :=
  broadcastInDim S1600000x1 ![0] bcast_S1600000_S1600000x1_0
    (select (cmpi .slt (srcK ei) (broadcastInDim S1600000 ![] bcast_S_S1600000 (constantI S_ 32 0#32)))
      (addi (srcK ei) (broadcastInDim S1600000 ![] bcast_S_S1600000 (constantI S_ 32 100000#32)))
      (srcK ei))

/-- The neighbour mean of the rows of `h`. -/
def aggK (ei : IVec S2x1600000 32) (h : FVec Ideal S100000x128 .f32) : FVec Ideal S100000x128 .f32 :=
  mulf
    (Host.scatterAdd scatter_S100000x128_S1600000x1_S1600000x128_1_0_0_1
      (broadcastInDim S100000x128 ![] bcast_S_S100000x128 (constant S_ .f32 0x00000000#32))
      (broadcastInDim S1600000x1 ![0] bcast_S1600000_S1600000x1_0 (dstK ei))
      (Host.gather gather_S100000x128_S1600000x1_S1600000x128_1_0_n_n_0_1_1128 h (srcColK ei)))
    (broadcastInDim S100000x128 ![0, 1] bcast_S100000x1_S100000x128_0_1
      (broadcastInDim S100000x1 ![0] bcast_S100000_S100000x1_0 (invK ei)))

/-- Layer 0's weight, transposed first and then cut out. -/
def wT0K (W : FVec Ideal S3x128x128 .f32) : FVec Ideal S128x128 .f32 :=
  shapeCast _ (extractStridedSlice S1x128x128 ![0, 0, 0] (transpose S3x128x128 [0, 2, 1] W transposes_S3x128x128_S3x128x128_0_2_1)
    slices_S3x128x128_S1x128x128_0_0_0) shapeCasts_S1x128x128_S128x128
/-- Layer 1's weight, transposed first and then cut out. -/
def wT1K (W : FVec Ideal S3x128x128 .f32) : FVec Ideal S128x128 .f32 :=
  shapeCast _ (extractStridedSlice S1x128x128 ![1, 0, 0] (transpose S3x128x128 [0, 2, 1] W transposes_S3x128x128_S3x128x128_0_2_1)
    slices_S3x128x128_S1x128x128_1_0_0) shapeCasts_S1x128x128_S128x128
/-- Layer 2's weight, transposed first and then cut out. -/
def wT2K (W : FVec Ideal S3x128x128 .f32) : FVec Ideal S128x128 .f32 :=
  shapeCast _ (extractStridedSlice S1x128x128 ![2, 0, 0] (transpose S3x128x128 [0, 2, 1] W transposes_S3x128x128_S3x128x128_0_2_1)
    slices_S3x128x128_S1x128x128_2_0_0) shapeCasts_S1x128x128_S128x128

/-- Layer 0's bias row. -/
def b0K (bl : FVec Ideal S3x128 .f32) : FVec Ideal S128 .f32 :=
  shapeCast _ (extractStridedSlice S1x128 ![0, 0] bl slices_S3x128_S1x128_0_0) shapeCasts_S1x128_S128
/-- Layer 1's bias row. -/
def b1K (bl : FVec Ideal S3x128 .f32) : FVec Ideal S128 .f32 :=
  shapeCast _ (extractStridedSlice S1x128 ![1, 0] bl slices_S3x128_S1x128_1_0) shapeCasts_S1x128_S128
/-- Layer 2's bias row. -/
def b2K (bl : FVec Ideal S3x128 .f32) : FVec Ideal S128 .f32 :=
  shapeCast _ (extractStridedSlice S1x128 ![2, 0] bl slices_S3x128_S1x128_2_0) shapeCasts_S1x128_S128

/-- The read-out weight transposed into the left 64 columns of a zero 128 × 128 array. -/
def wpadK (Wout : FVec Ideal S64x128 .f32) : FVec Ideal S128x128 .f32 :=
  Host.scatter scatter_S128x128_S1_S128x64_01_n_1_0 (fun _ b => b)
    (broadcastInDim S128x128 ![] bcast_S_S128x128 (constant S_ .f32 0x00000000#32))
    (broadcastInDim S1 ![] bcast_S_S1 (constantI S_ 32 0#32))
    (transpose S128x64 [1, 0] Wout transposes_S64x128_S128x64_1_0)

/-- The read-out bias in the left 64 entries of a zero vector of 128. -/
def bpadK (bout : FVec Ideal S64 .f32) : FVec Ideal S128 .f32 :=
  Host.scatter scatter_S128_S1_S64_0_n_0_0 (fun _ b => b)
    (broadcastInDim S128 ![] bcast_S_S128 (constant S_ .f32 0x00000000#32))
    (broadcastInDim S1 ![] bcast_S_S1 (constantI S_ 32 0#32))
    bout

/-- The nodes' rows after layer 0, 1, 2 as the kernel program computes them. -/
def h1K (x : FVec Ideal S100000x128 .f32) (ei : IVec S2x1600000 32) (Wl : FVec Ideal S3x128x128 .f32)
    (bl : FVec Ideal S3x128 .f32) (Wr : FVec Ideal S3x128x128 .f32) : FVec Ideal S100000x128 .f32 :=
  layerG (aggK ei x) x (wT0K Wl) (wT0K Wr) (b0K bl)
def h2K (x : FVec Ideal S100000x128 .f32) (ei : IVec S2x1600000 32) (Wl : FVec Ideal S3x128x128 .f32)
    (bl : FVec Ideal S3x128 .f32) (Wr : FVec Ideal S3x128x128 .f32) : FVec Ideal S100000x128 .f32 :=
  layerG (aggK ei (h1K x ei Wl bl Wr)) (h1K x ei Wl bl Wr) (wT1K Wl) (wT1K Wr) (b1K bl)
def h3K (x : FVec Ideal S100000x128 .f32) (ei : IVec S2x1600000 32) (Wl : FVec Ideal S3x128x128 .f32)
    (bl : FVec Ideal S3x128 .f32) (Wr : FVec Ideal S3x128x128 .f32) : FVec Ideal S100000x128 .f32 :=
  layerG (aggK ei (h2K x ei Wl bl Wr)) (h2K x ei Wl bl Wr) (wT2K Wl) (wT2K Wr) (b2K bl)

/-- The kernel program's result: the left 64 columns of the padded read-out of the last layer. -/
def kernelSpec (x : FVec Ideal S100000x128 .f32) (ei : IVec S2x1600000 32) (Wl : FVec Ideal S3x128x128 .f32)
    (bl : FVec Ideal S3x128 .f32) (Wr : FVec Ideal S3x128x128 .f32) (Wout : FVec Ideal S64x128 .f32)
    (bout : FVec Ideal S64 .f32) : FVec Ideal S100000x64 .f32 :=
  extractStridedSlice S100000x64 ![0, 0] (outG (h3K x ei Wl bl Wr) (wpadK Wout) (bpadK bout)) slices_S100000x128_S100000x64_0_0

end K

section R
open Cert.ReferenceIdeal Cert.ReferenceIdeal.Facts₀

def srcR (ei : IVec S2x1600000 32) : IVec S1600000 32 :=
  shapeCast _ (extractStridedSlice S1x1600000 ![0, 0] ei slices_S2x1600000_S1x1600000_0_0) shapeCasts_S1x1600000_S1600000

def dstR (ei : IVec S2x1600000 32) : IVec S1600000 32 :=
  shapeCast _ (extractStridedSlice S1x1600000 ![1, 0] ei slices_S2x1600000_S1x1600000_1_0) shapeCasts_S1x1600000_S1600000

def invR (ei : IVec S2x1600000 32) : FVec Ideal S100000 .f32 :=
  Host.divf (broadcastInDim S100000 ![] bcast_S_S100000 (constant S_ .f32 0x3F800000#32))
    (maximumf
      (Host.scatterAdd scatter_S100000_S1600000x1_S1600000_n_0_0_1
        (broadcastInDim S100000 ![] bcast_S_S100000 (constant S_ .f32 0x00000000#32))
        (broadcastInDim S1600000x1 ![0] bcast_S1600000_S1600000x1_0 (dstR ei))
        (broadcastInDim S1600000 ![] bcast_S_S1600000 (constant S_ .f32 0x3F800000#32)))
      (broadcastInDim S100000 ![] bcast_S_S100000 (constant S_ .f32 0x3F800000#32)))

def srcColR (ei : IVec S2x1600000 32) : IVec S1600000x1 32 :=
  broadcastInDim S1600000x1 ![0] bcast_S1600000_S1600000x1_0
    (select (cmpi .slt (srcR ei) (broadcastInDim S1600000 ![] bcast_S_S1600000 (constantI S_ 32 0#32)))
      (addi (srcR ei) (broadcastInDim S1600000 ![] bcast_S_S1600000 (constantI S_ 32 100000#32)))
      (srcR ei))

/-- The neighbour mean as the reference spells it. -/
def aggR (ei : IVec S2x1600000 32) (h : FVec Ideal S100000x128 .f32) : FVec Ideal S100000x128 .f32 :=
  mulf
    (Host.scatterAdd scatter_S100000x128_S1600000x1_S1600000x128_1_0_0_1
      (broadcastInDim S100000x128 ![] bcast_S_S100000x128 (constant S_ .f32 0x00000000#32))
      (broadcastInDim S1600000x1 ![0] bcast_S1600000_S1600000x1_0 (dstR ei))
      (Host.gather gather_S100000x128_S1600000x1_S1600000x128_1_0_n_n_0_1_1128 h (srcColR ei)))
    (broadcastInDim S100000x128 ![0, 1] bcast_S100000x1_S100000x128_0_1
      (broadcastInDim S100000x1 ![0] bcast_S100000_S100000x1_0 (invR ei)))

def w0R (W : FVec Ideal S3x128x128 .f32) : FVec Ideal S128x128 .f32 :=
  shapeCast _ (extractStridedSlice S1x128x128 ![0, 0, 0] W slices_S3x128x128_S1x128x128_0_0_0) shapeCasts_S1x128x128_S128x128
def w1R (W : FVec Ideal S3x128x128 .f32) : FVec Ideal S128x128 .f32 :=
  shapeCast _ (extractStridedSlice S1x128x128 ![1, 0, 0] W slices_S3x128x128_S1x128x128_1_0_0) shapeCasts_S1x128x128_S128x128
def w2R (W : FVec Ideal S3x128x128 .f32) : FVec Ideal S128x128 .f32 :=
  shapeCast _ (extractStridedSlice S1x128x128 ![2, 0, 0] W slices_S3x128x128_S1x128x128_2_0_0) shapeCasts_S1x128x128_S128x128

def b0R (bl : FVec Ideal S3x128 .f32) : FVec Ideal S128 .f32 :=
  shapeCast _ (extractStridedSlice S1x128 ![0, 0] bl slices_S3x128_S1x128_0_0) shapeCasts_S1x128_S128
def b1R (bl : FVec Ideal S3x128 .f32) : FVec Ideal S128 .f32 :=
  shapeCast _ (extractStridedSlice S1x128 ![1, 0] bl slices_S3x128_S1x128_1_0) shapeCasts_S1x128_S128
def b2R (bl : FVec Ideal S3x128 .f32) : FVec Ideal S128 .f32 :=
  shapeCast _ (extractStridedSlice S1x128 ![2, 0] bl slices_S3x128_S1x128_2_0) shapeCasts_S1x128_S128

/-- One layer as the reference spells it: (a · wlᵀ + b) + h · wrᵀ, clamped below at zero, with `wl`, `wr` laid
    out output axis first. -/
def layerR (a h : FVec Ideal S100000x128 .f32) (wl wr : FVec Ideal S128x128 .f32) (b : FVec Ideal S128 .f32) :
    FVec Ideal S100000x128 .f32 :=
  maximumf
    (addf
      (addf
        (Host.dotGeneral dot_S100000x128_S128x128_S100000x128_1_0_0_1_n_n none a
          (transpose S128x128 [1, 0] wl transposes_S128x128_S128x128_1_0))
        (broadcastInDim S100000x128 ![0, 1] bcast_S1x128_S100000x128_0_1 (broadcastInDim S1x128 ![1] bcast_S128_S1x128_1 b)))
      (Host.dotGeneral dot_S100000x128_S128x128_S100000x128_1_0_0_1_n_n none h
        (transpose S128x128 [1, 0] wr transposes_S128x128_S128x128_1_0)))
    (broadcastInDim S100000x128 ![] bcast_S_S100000x128 (constant S_ .f32 0x00000000#32))

def h1R (x : FVec Ideal S100000x128 .f32) (ei : IVec S2x1600000 32) (Wl : FVec Ideal S3x128x128 .f32)
    (bl : FVec Ideal S3x128 .f32) (Wr : FVec Ideal S3x128x128 .f32) : FVec Ideal S100000x128 .f32 :=
  layerR (aggR ei x) x (w0R Wl) (w0R Wr) (b0R bl)
def h2R (x : FVec Ideal S100000x128 .f32) (ei : IVec S2x1600000 32) (Wl : FVec Ideal S3x128x128 .f32)
    (bl : FVec Ideal S3x128 .f32) (Wr : FVec Ideal S3x128x128 .f32) : FVec Ideal S100000x128 .f32 :=
  layerR (aggR ei (h1R x ei Wl bl Wr)) (h1R x ei Wl bl Wr) (w1R Wl) (w1R Wr) (b1R bl)
def h3R (x : FVec Ideal S100000x128 .f32) (ei : IVec S2x1600000 32) (Wl : FVec Ideal S3x128x128 .f32)
    (bl : FVec Ideal S3x128 .f32) (Wr : FVec Ideal S3x128x128 .f32) : FVec Ideal S100000x128 .f32 :=
  layerR (aggR ei (h2R x ei Wl bl Wr)) (h2R x ei Wl bl Wr) (w2R Wl) (w2R Wr) (b2R bl)

/-- The read-out as the reference spells it. -/
def outR (h : FVec Ideal S100000x128 .f32) (Wout : FVec Ideal S64x128 .f32) (bout : FVec Ideal S64 .f32) :
    FVec Ideal S100000x64 .f32 :=
  addf
    (Host.dotGeneral dot_S100000x128_S128x64_S100000x64_1_0_0_1_n_n none h
      (transpose S128x64 [1, 0] Wout transposes_S64x128_S128x64_1_0))
    (broadcastInDim S100000x64 ![0, 1] bcast_S1x64_S100000x64_0_1 (broadcastInDim S1x64 ![1] bcast_S64_S1x64_1 bout))

/-- The reference program's result. -/
def refSpec (x : FVec Ideal S100000x128 .f32) (ei : IVec S2x1600000 32) (Wl : FVec Ideal S3x128x128 .f32)
    (bl : FVec Ideal S3x128 .f32) (Wr : FVec Ideal S3x128x128 .f32) (Wout : FVec Ideal S64x128 .f32)
    (bout : FVec Ideal S64 .f32) : FVec Ideal S100000x64 .f32 :=
  outR (h3R x ei Wl bl Wr) Wout bout

end R

/-- The two programs spell the neighbour mean with the same dimension numbers. -/
theorem aggK_eq_aggR (ei : IVec Cert.KernelIdeal.S2x1600000 32) (h : FVec Ideal Cert.KernelIdeal.S100000x128 .f32) :
    aggK ei h = aggR ei h := rfl

end Cert.Sage

end
-- ==== Proof.LibPlainDot.lean ====
import Idealize.ShloMosaic.PureOps.Ideal.Laws
import Idealize.ShloMosaic.Lib.ValueIdx

/-!
# A plain matrix product read at an entry

For the dimension numbers of an M×K by K×N product with no batch axis, entry (p, q) of the product into a
zero accumulator is the sum over k of left (p, k) times right (k, q), on the extended reals.
-/

noncomputable section

namespace Cert.PlainDot

open Idealize.ShloMosaic Idealize.ShloMosaic.ValueIdx
open scoped BigOperators

theorem contr_rank (M K N : Nat) : (DotDims.plain M K N).contr.rank = 1 := rfl

theorem contr_size (M K N : Nat) :
    (DotDims.plain M K N).contr.size ⟨0, by rw [contr_rank]; exact Nat.one_pos⟩ = K := rfl

/-- The left operand's index at output (p, q) and contraction coordinate k is (p, k). -/
theorem lhsIdx_eq (M K N : Nat) (p : Fin M) (q : Fin N) (k : Fin K) :
    (DotDims.plain M K N).lhsIdx (ix2 p q)
        ((contrEquiv1 (DotDims.plain M K N) K (contr_rank M K N) (contr_size M K N)).symm k) = ix2 p k := by
  have hk := contrEquiv1_symm_val (DotDims.plain M K N) K (contr_rank M K N) (contr_size M K N) k
  funext a
  refine Fin.ext ?_
  match a with
  | ⟨0, _⟩ =>
    show ((DotDims.plain M K N).lhsIdx (ix2 p q) _ 0).val = p.val
    unfold DotDims.lhsIdx
    rw [dif_neg (show ¬(0 : Fin 2) ∈ (DotDims.plain M K N).lhsBatch from List.not_mem_nil),
      dif_pos (show (0 : Fin 2) ∈ (DotDims.plain M K N).lhsNonContracting from List.mem_singleton.mpr rfl)]
    rfl
  | ⟨1, _⟩ =>
    exact ((DotDims.plain M K N).lhsIdx_val_of_single (cl := (1 : Fin 2)) rfl _ _).trans hk

/-- The right operand's index at output (p, q) and contraction coordinate k is (k, q). -/
theorem rhsIdx_eq (M K N : Nat) (p : Fin M) (q : Fin N) (k : Fin K) :
    (DotDims.plain M K N).rhsIdx (ix2 p q)
        ((contrEquiv1 (DotDims.plain M K N) K (contr_rank M K N) (contr_size M K N)).symm k) = ix2 k q := by
  have hk := contrEquiv1_symm_val (DotDims.plain M K N) K (contr_rank M K N) (contr_size M K N) k
  funext a
  refine Fin.ext ?_
  match a with
  | ⟨0, _⟩ =>
    exact ((DotDims.plain M K N).rhsIdx_val_of_single (cr := (0 : Fin 2)) rfl _ _).trans hk
  | ⟨1, _⟩ =>
    show ((DotDims.plain M K N).rhsIdx (ix2 p q) _ 1).val = q.val
    unfold DotDims.rhsIdx
    rw [dif_neg (show ¬(1 : Fin 2) ∈ (DotDims.plain M K N).rhsBatch from List.not_mem_nil),
      dif_pos (show (1 : Fin 2) ∈ (DotDims.plain M K N).rhsNonContracting from List.mem_singleton.mpr rfl)]
    rfl

/-- A plain product into the zero accumulator, at entry (p, q). -/
theorem matmul_zero_apply {φ₁ φ₂ : FTy} (M K N : Nat) (prec : Option ContractPrecision)
    (l : FVec Ideal ⟨2, ![M, K]⟩ φ₁) (r : FVec Ideal ⟨2, ![K, N]⟩ φ₂) (p : Fin M) (q : Fin N) :
    matmul (DotDims.plain M K N) prec l r (constant (F := Ideal) ⟨2, ![M, N]⟩ .f32 0x00000000#32) (ix2 p q)
      = ∑ k : Fin K, l (ix2 p k) * r (ix2 k q) := by
  show FloatOps.matmul (DotDims.plain M K N) prec l r (constant ⟨2, ![M, N]⟩ .f32 0x00000000#32) (ix2 p q) = _
  rw [Ideal.matmul_constant_zero_apply,
    ← Equiv.sum_comp (contrEquiv1 (DotDims.plain M K N) K (contr_rank M K N) (contr_size M K N)).symm]
  refine Finset.sum_congr rfl fun k _ => ?_
  rw [lhsIdx_eq, rhsIdx_eq]

end Cert.PlainDot

end
-- ==== Proof.BlockLib.lean ====
import proofs.«112709_j37056977830621_1_alg».proof.Proof.Gen.KernelIdeal.Skeleton
import proofs.«112709_j37056977830621_1_alg».proof.Proof.LibPlainDot
import proofs.«112709_j37056977830621_1_alg».proof.Proof.Spec
import Idealize.ShloMosaic.Lib.Pipeline.Value
import Idealize.ShloMosaic.Lib.ValueLayout

/-!
# The layer's and the read-out's block arithmetic at one entry

For blocks x0, x1 of 5000 rows, weights x2, x3 laid out contraction axis first and a bias row x4, entry (p, q) of
what a layer's body stores is max((Σₖ x0(p,k)·x2(k,q) + Σₖ x1(p,k)·x3(k,q)) + x4(q), 0); the read-out's body stores
Σₖ x0(p,k)·x2(k,q) + x4(q). On the extended reals a change of float format is the identity and a matrix product into a
zero accumulator is the plain sum of products. When the blocks' rows are rows of whole arrays and the weights and the
bias are whole arrays, these are the whole-array layer and read-out at that row.
-/

noncomputable section

open scoped BigOperators

namespace Cert.Sage

open Idealize.ShloMosaic Idealize.ShloMosaic.ValueIdx
open Cert.KernelIdeal Cert.KernelIdeal.Gen

/-- The two zero offsets of a rank-2 rectangle, as the constant function. -/
theorem zero_off2 : (![0, 0] : Fin 2 → Nat) = fun _ => 0 := by
  funext a; match a with | ⟨0, _⟩ => rfl | ⟨1, _⟩ => rfl

/-- The zero offset of a rank-1 rectangle, as the constant function. -/
theorem zero_off1 : (![0] : Fin 1 → Nat) = fun _ => 0 := by
  funext a; match a with | ⟨0, _⟩ => rfl

/-- The bodies' matrix products are 5000 × 128 by 128 × 128 with no batch axis. -/
theorem dot_plain : dot_S5000x128_S128x128_S5000x128_1_0_0_1_n_n = DotDims.plain 5000 128 128 := rfl

/-- Entry (p, q) of a block product into the zero accumulator is Σₖ l(p,k)·r(k,q). -/
theorem product_at {φ₁ φ₂ : FTy} (l : FVec Ideal S5000x128 φ₁) (r : FVec Ideal S128x128 φ₂) (p : Fin 5000) (q : Fin 128) :
    matmul dot_S5000x128_S128x128_S5000x128_1_0_0_1_n_n none l r (constant (F := Ideal) S5000x128 .f32 0x00000000#32) (ix2 p q)
      = ∑ k : Fin 128, l (ix2 p k) * r (ix2 k q) := by
  rw [dot_plain]
  exact Cert.PlainDot.matmul_zero_apply 5000 128 128 none l r p q

/-- The bias row viewed as a 1 × 128 array and repeated over 5000 rows reads, at (p, q), the bias at q. -/
theorem bias_at (b : FVec Ideal S128 .f32) (hc : S128.ShapeCasts S1x128) (hb : S1x128.Broadcasts S5000x128)
    (p : Fin 5000) (q : Fin 128) :
    broadcastTo S5000x128 (shapeCast S1x128 b hc) hb (ix2 p q) = b (ix1 q) := by
  rw [broadcastTo_1b_ab_apply, shapeCast_a_1a_apply]

/-! ## What each body stores, at entry (p, q) -/

/-- Layer 0's stored block at entry (p, q). -/
theorem layer0_payload_at (x0 x1 : Vec Ideal S5000x128 .f32) (x2 x3 : Vec Ideal S128x128 .f32) (x4 : Vec Ideal S128 .f32)
    (p : Fin 5000) (q : Fin 128) :
    k0_pay1 x0 x1 x2 x3 x4 (ix2 p q)
      = max (((∑ k : Fin 128, x0 (ix2 p k) * x2 (ix2 k q)) + ∑ k : Fin 128, x1 (ix2 p k) * x3 (ix2 k q)) + x4 (ix1 q))
          (Ideal.ofBits .f32 0x00000000#32) := by
  unfold k0_pay1
  simp only [shapeCast_self]
  rw [maximumf_apply, addf_apply, addf_apply, broadcast_apply, product_at, product_at, bias_at]
  rfl

/-- Layer 1's stored block at entry (p, q). -/
theorem layer1_payload_at (x0 x1 : Vec Ideal S5000x128 .f32) (x2 x3 : Vec Ideal S128x128 .f32) (x4 : Vec Ideal S128 .f32)
    (p : Fin 5000) (q : Fin 128) :
    k1_pay1 x0 x1 x2 x3 x4 (ix2 p q)
      = max (((∑ k : Fin 128, x0 (ix2 p k) * x2 (ix2 k q)) + ∑ k : Fin 128, x1 (ix2 p k) * x3 (ix2 k q)) + x4 (ix1 q))
          (Ideal.ofBits .f32 0x00000000#32) := by
  unfold k1_pay1
  simp only [shapeCast_self]
  rw [maximumf_apply, addf_apply, addf_apply, broadcast_apply, product_at, product_at, bias_at]
  rfl

/-- Layer 2's stored block at entry (p, q). -/
theorem layer2_payload_at (x0 x1 : Vec Ideal S5000x128 .f32) (x2 x3 : Vec Ideal S128x128 .f32) (x4 : Vec Ideal S128 .f32)
    (p : Fin 5000) (q : Fin 128) :
    k2_pay1 x0 x1 x2 x3 x4 (ix2 p q)
      = max (((∑ k : Fin 128, x0 (ix2 p k) * x2 (ix2 k q)) + ∑ k : Fin 128, x1 (ix2 p k) * x3 (ix2 k q)) + x4 (ix1 q))
          (Ideal.ofBits .f32 0x00000000#32) := by
  unfold k2_pay1
  simp only [shapeCast_self]
  rw [maximumf_apply, addf_apply, addf_apply, broadcast_apply, product_at, product_at, bias_at]
  rfl

/-- The read-out's stored block at entry (p, q). -/
theorem readout_payload_at (x0 : Vec Ideal S5000x128 .f32) (x2 : Vec Ideal S128x128 .f32) (x4 : Vec Ideal S128 .f32)
    (p : Fin 5000) (q : Fin 128) :
    k3_pay1 x0 x2 x4 (ix2 p q) = (∑ k : Fin 128, x0 (ix2 p k) * x2 (ix2 k q)) + x4 (ix1 q) := by
  unfold k3_pay1
  simp only [shapeCast_self]
  rw [addf_apply, product_at, bias_at]
  rfl

/-! ## A block whose rows are rows of the arrays -/

/-- The layer formula over blocks x0, x1 whose row p is row (i 0) of the arrays a, h, with the whole weights and bias,
    at column q = i 1, is the whole-array layer at i. -/
theorem layer_formula_of_rows (x0 x1 : Vec Ideal S5000x128 .f32) (x2 x3 : Vec Ideal S128x128 .f32) (x4 : Vec Ideal S128 .f32)
    (a h : FVec Ideal S100000x128 .f32) (wl wr : FVec Ideal S128x128 .f32) (b : FVec Ideal S128 .f32)
    (p : Fin 5000) (q : Fin 128) (i : S100000x128.Idx)
    (h0 : ∀ k : Fin 128, x0 (ix2 p k) = a (ix2 (i 0) k)) (h1 : ∀ k : Fin 128, x1 (ix2 p k) = h (ix2 (i 0) k))
    (h2 : x2 = wl) (h3 : x3 = wr) (h4 : x4 = b) (hq : (i 1 : Fin 128) = q) :
    max (((∑ k : Fin 128, x0 (ix2 p k) * x2 (ix2 k q)) + ∑ k : Fin 128, x1 (ix2 p k) * x3 (ix2 k q)) + x4 (ix1 q))
        (Ideal.ofBits .f32 0x00000000#32)
      = layerG a h wl wr b i := by
  subst h2 h3 h4 hq
  unfold layerG layerAt
  simp only [h0, h1]

/-- Layer 0's stored block at (p, q), over such blocks, is the whole-array layer at i. -/
theorem layer0_block_entry (x0 x1 : Vec Ideal S5000x128 .f32) (x2 x3 : Vec Ideal S128x128 .f32) (x4 : Vec Ideal S128 .f32)
    (a h : FVec Ideal S100000x128 .f32) (wl wr : FVec Ideal S128x128 .f32) (b : FVec Ideal S128 .f32)
    (p : Fin 5000) (q : Fin 128) (i : S100000x128.Idx)
    (h0 : ∀ k : Fin 128, x0 (ix2 p k) = a (ix2 (i 0) k)) (h1 : ∀ k : Fin 128, x1 (ix2 p k) = h (ix2 (i 0) k))
    (h2 : x2 = wl) (h3 : x3 = wr) (h4 : x4 = b) (hq : (i 1 : Fin 128) = q) :
    k0_pay1 x0 x1 x2 x3 x4 (ix2 p q) = layerG a h wl wr b i :=
  (layer0_payload_at x0 x1 x2 x3 x4 p q).trans (layer_formula_of_rows x0 x1 x2 x3 x4 a h wl wr b p q i h0 h1 h2 h3 h4 hq)

/-- Layer 1's stored block at (p, q), over such blocks, is the whole-array layer at i. -/
theorem layer1_block_entry (x0 x1 : Vec Ideal S5000x128 .f32) (x2 x3 : Vec Ideal S128x128 .f32) (x4 : Vec Ideal S128 .f32)
    (a h : FVec Ideal S100000x128 .f32) (wl wr : FVec Ideal S128x128 .f32) (b : FVec Ideal S128 .f32)
    (p : Fin 5000) (q : Fin 128) (i : S100000x128.Idx)
    (h0 : ∀ k : Fin 128, x0 (ix2 p k) = a (ix2 (i 0) k)) (h1 : ∀ k : Fin 128, x1 (ix2 p k) = h (ix2 (i 0) k))
    (h2 : x2 = wl) (h3 : x3 = wr) (h4 : x4 = b) (hq : (i 1 : Fin 128) = q) :
    k1_pay1 x0 x1 x2 x3 x4 (ix2 p q) = layerG a h wl wr b i :=
  (layer1_payload_at x0 x1 x2 x3 x4 p q).trans (layer_formula_of_rows x0 x1 x2 x3 x4 a h wl wr b p q i h0 h1 h2 h3 h4 hq)

/-- Layer 2's stored block at (p, q), over such blocks, is the whole-array layer at i. -/
theorem layer2_block_entry (x0 x1 : Vec Ideal S5000x128 .f32) (x2 x3 : Vec Ideal S128x128 .f32) (x4 : Vec Ideal S128 .f32)
    (a h : FVec Ideal S100000x128 .f32) (wl wr : FVec Ideal S128x128 .f32) (b : FVec Ideal S128 .f32)
    (p : Fin 5000) (q : Fin 128) (i : S100000x128.Idx)
    (h0 : ∀ k : Fin 128, x0 (ix2 p k) = a (ix2 (i 0) k)) (h1 : ∀ k : Fin 128, x1 (ix2 p k) = h (ix2 (i 0) k))
    (h2 : x2 = wl) (h3 : x3 = wr) (h4 : x4 = b) (hq : (i 1 : Fin 128) = q) :
    k2_pay1 x0 x1 x2 x3 x4 (ix2 p q) = layerG a h wl wr b i :=
  (layer2_payload_at x0 x1 x2 x3 x4 p q).trans (layer_formula_of_rows x0 x1 x2 x3 x4 a h wl wr b p q i h0 h1 h2 h3 h4 hq)

/-- The read-out's stored block at (p, q), over a block x0 whose row p is row (i 0) of h, with the whole weight and
    bias, at column q = i 1, is the whole-array read-out at i. -/
theorem readout_block_entry (x0 : Vec Ideal S5000x128 .f32) (x2 : Vec Ideal S128x128 .f32) (x4 : Vec Ideal S128 .f32)
    (h : FVec Ideal S100000x128 .f32) (w : FVec Ideal S128x128 .f32) (b : FVec Ideal S128 .f32)
    (p : Fin 5000) (q : Fin 128) (i : S100000x128.Idx)
    (h0 : ∀ k : Fin 128, x0 (ix2 p k) = h (ix2 (i 0) k)) (h2 : x2 = w) (h4 : x4 = b) (hq : (i 1 : Fin 128) = q) :
    k3_pay1 x0 x2 x4 (ix2 p q) = outG h w b i := by
  rw [readout_payload_at]
  subst h2 h4 hq
  unfold outG outAt
  simp only [h0]

end Cert.Sage

end
-- ==== Proof.Block0.lean ====
import proofs.«112709_j37056977830621_1_alg».proof.Proof.Gen.KernelIdeal.Frame
import proofs.«112709_j37056977830621_1_alg».proof.Proof.Spec
import proofs.«112709_j37056977830621_1_alg».proof.Proof.BlockLib

/-!
# Layer 0's region: its output array as one function of the arrays it finds

The region runs the layer's body at 20 points; point t reads rows 5000·t … 5000·t + 4999 of the neighbour means and of
the nodes' rows, the whole weights and bias, and writes the same rows of the output. So what point t writes back is
block t of the whole-array layer, the 20 blocks cover the 100000 rows, and the output array ends as the layer of the
arrays the region found.
-/

set_option maxRecDepth 16384

noncomputable section

open scoped BigOperators

namespace Cert.Sage

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

/-- The arrays the region's six windows stage, in the call's operand order. -/
theorem region0_arrays : Pipeline.arrRef spec0 0 = main_v26 ∧ Pipeline.arrRef spec0 1 = main_arg0 ∧ Pipeline.arrRef spec0 2 = main_v28
    ∧ Pipeline.arrRef spec0 3 = main_v30 ∧ Pipeline.arrRef spec0 4 = main_v32 ∧ Pipeline.arrRef spec0 5 = main_v33 :=
  ⟨rfl, rfl, rfl, rfl, rfl, rfl⟩

/-- Over the grid: the two row-block inputs and the output sit at block row t, every other block index is zero. -/
theorem region0_block_index : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = t.val ∧ win0_5.index t (1 : Fin 2) = 0 :=
  (by decide +kernel : ∀ t : Fin grid0.N, _)

/-- Row p of the neighbour means' block at point t is row 5000·t + p of the array. -/
theorem region0_means_row (c : Dev nD) (t : Fin cfg0.N) (p : Fin 5000) (k : Fin 128) (i : S100000x128.Idx)
    (hi : (i 0).val = t.val * 5000 + p.val) :
    (iblk0 V c 0 t : Vec Ideal S5000x128 .f32) (ix2 p k) = (V c main_v26 : FVec Ideal S100000x128 .f32) (ix2 (i 0) k) := by
  obtain ⟨e0, e1, -⟩ := region0_block_index t
  show V c main_v26 (((cfg0.win 0).blk t).view.emb (ix2 p k)) = V c main_v26 (ix2 (i 0) k)
  refine congrArg _ (funext fun a => Fin.ext ?_)
  match a with
  | ⟨0, _⟩ => show win0_0.index t (0 : Fin 2) * 5000 + 1 * p.val = (i 0).val; omega
  | ⟨1, _⟩ => show win0_0.index t (1 : Fin 2) * 128 + 1 * k.val = k.val; omega

/-- Row p of the nodes' rows' block at point t is row 5000·t + p of the array. -/
theorem region0_nodes_row (c : Dev nD) (t : Fin cfg0.N) (p : Fin 5000) (k : Fin 128) (i : S100000x128.Idx)
    (hi : (i 0).val = t.val * 5000 + p.val) :
    (iblk0 V c 1 t : Vec Ideal S5000x128 .f32) (ix2 p k) = (V c main_arg0 : FVec Ideal S100000x128 .f32) (ix2 (i 0) k) := by
  obtain ⟨-, -, e0, e1, -⟩ := region0_block_index t
  show V c main_arg0 (((cfg0.win 1).blk t).view.emb (ix2 p k)) = V c main_arg0 (ix2 (i 0) k)
  refine congrArg _ (funext fun a => Fin.ext ?_)
  match a with
  | ⟨0, _⟩ => show win0_1.index t (0 : Fin 2) * 5000 + 1 * p.val = (i 0).val; omega
  | ⟨1, _⟩ => show win0_1.index t (1 : Fin 2) * 128 + 1 * k.val = k.val; omega

/-- The first weight's block at every point is the whole array. -/
theorem region0_wl_whole (c : Dev nD) (t : Fin cfg0.N) :
    (iblk0 V c 2 t : Vec Ideal S128x128 .f32) = (V c main_v28 : FVec Ideal S128x128 .f32) := by
  obtain ⟨-, -, -, -, e0, e1, -⟩ := region0_block_index t
  funext y
  show V c main_v28 (((cfg0.win 2).blk t).view.emb y) = V c main_v28 y
  refine congrArg _ (funext fun a => Fin.ext ?_)
  match a with
  | ⟨0, _⟩ => show win0_2.index t (0 : Fin 2) * 128 + 1 * (y 0).val = (y 0).val; omega
  | ⟨1, _⟩ => show win0_2.index t (1 : Fin 2) * 128 + 1 * (y 1).val = (y 1).val; omega

/-- The second weight's block at every point is the whole array. -/
theorem region0_wr_whole (c : Dev nD) (t : Fin cfg0.N) :
    (iblk0 V c 3 t : Vec Ideal S128x128 .f32) = (V c main_v30 : FVec Ideal S128x128 .f32) := by
  obtain ⟨-, -, -, -, -, -, e0, e1, -⟩ := region0_block_index t
  funext y
  show V c main_v30 (((cfg0.win 3).blk t).view.emb y) = V c main_v30 y
  refine congrArg _ (funext fun a => Fin.ext ?_)
  match a with
  | ⟨0, _⟩ => show win0_3.index t (0 : Fin 2) * 128 + 1 * (y 0).val = (y 0).val; omega
  | ⟨1, _⟩ => show win0_3.index t (1 : Fin 2) * 128 + 1 * (y 1).val = (y 1).val; omega

/-- The bias's block at every point is the whole array. -/
theorem region0_bias_whole (c : Dev nD) (t : Fin cfg0.N) :
    (iblk0 V c 4 t : Vec Ideal S128 .f32) = (V c main_v32 : FVec Ideal S128 .f32) := by
  obtain ⟨-, -, -, -, -, -, -, -, e0, -⟩ := region0_block_index t
  funext y
  show V c main_v32 (((cfg0.win 4).blk t).view.emb y) = V c main_v32 y
  refine congrArg _ (funext fun a => Fin.ext ?_)
  match a with
  | ⟨0, _⟩ => show win0_4.index t (0 : Fin 1) * 128 + 1 * (y 0).val = (y 0).val; omega

/-- Entry j of what the body stores at point t is the whole-array layer at the entry of the output array that the
    output window's block puts j at. -/
theorem region0_stored_entry (c : Dev nD) (t : Fin cfg0.N) (j : S5000x128.Idx) :
    k0_pay1 (iblk0 V c 0 t) (iblk0 V c 1 t) (iblk0 V c 2 t) (iblk0 V c 3 t) (iblk0 V c 4 t) j
      = layerG (V c main_v26) (V c main_arg0) (V c main_v28) (V c main_v30) (V c main_v32) (((cfg0.win 5).blk t).view.emb j) := by
  obtain ⟨p, q, rfl⟩ : ∃ (p : Fin 5000) (q : Fin 128), j = ix2 p q := ⟨j 0, j 1, eq_ix2 j⟩
  obtain ⟨-, -, -, -, -, -, -, -, -, e0, e1⟩ := region0_block_index t
  have hrow : ((((cfg0.win 5).blk t).view.emb (ix2 p q) : S100000x128.Idx) 0).val = t.val * 5000 + p.val := by
    show win0_5.index t (0 : Fin 2) * 5000 + 1 * p.val = _; omega
  refine layer0_block_entry _ _ _ _ _ _ _ _ _ _ p q _ (fun k => region0_means_row V c t p k _ hrow)
    (fun k => region0_nodes_row V c t p k _ hrow) (region0_wl_whole V c t) (region0_wr_whole V c t)
    (region0_bias_whole V c t) (Fin.ext ?_)
  show win0_5.index t (1 : Fin 2) * 128 + 1 * q.val = q.val; omega

/-- What point t writes back is block t of the whole-array layer. -/
theorem region0_written_block (c : Dev nD) (t : Fin cfg0.N) :
    (dat0 (F := Ideal) V c).flushed 5 t
      = ((cfg0.win 5).blk t).view.read (Elt Ideal) (layerG (V c main_v26) (V c main_arg0) (V c main_v28) (V c main_v30) (V c main_v32)) := by
  show (cfg0.win 5).cut (grid0.coords t) ((dat0 V c).after 5 t) = _
  rw [after0_5]
  unfold out0_5
  rw [View.canon_unit_zero zero_off2]
  simp only [View.ld_unit_zero (S := S5000x128) zero_off2, View.ld_unit_zero (S := S128x128) zero_off2,
    View.ld_unit_zero (S := S128) zero_off1]
  funext j
  exact region0_stored_entry V c t j

/-- An entry of the output array is in point t's block iff each coordinate is in the block's range on its axis. -/
theorem region0_mem_block (t : Fin cfg0.N) (i : S100000x128.Idx) :
    i ∈ ((cfg0.win 5).blk t).view.set ↔ ∀ a : Fin 2, win0_5.index t a * S5000x128.size a ≤ (i a).val
      ∧ (i a).val < win0_5.index t a * S5000x128.size a + S5000x128.size a := by
  show i ∈ ((View.whole main_v33).slice (win0_5.rect t)).set ↔ _
  rw [View.set_slice_whole, Rect.mem_set_unit]
  exact Iff.rfl

/-- Row r of the output array is in the block of point r / 5000. -/
theorem region0_rows_covered (i : S100000x128.Idx) :
    ∃ t : Fin cfg0.N, (cfg0.win 5).flush t = true ∧ i ∈ ((cfg0.win 5).blk t).view.set := by
  have hi0 : (i 0).val < 100000 := (i 0).isLt
  have hi1 : (i 1).val < 128 := (i 1).isLt
  have hN : grid0.N = 20 := N_0
  have ht : (i 0).val / 5000 < cfg0.N := by show (i 0).val / 5000 < grid0.N; rw [hN]; omega
  obtain ⟨-, -, -, -, -, -, -, -, -, e0, e1⟩ := region0_block_index ⟨(i 0).val / 5000, ht⟩
  have e0' : win0_5.index ⟨(i 0).val / 5000, ht⟩ (0 : Fin 2) = (i 0).val / 5000 := e0
  refine ⟨⟨(i 0).val / 5000, ht⟩, flush0_5 _, ?_⟩
  rw [region0_mem_block]
  intro a
  match a with
  | ⟨0, _⟩ =>
    show win0_5.index ⟨(i 0).val / 5000, ht⟩ (0 : Fin 2) * 5000 ≤ (i 0).val
      ∧ (i 0).val < win0_5.index ⟨(i 0).val / 5000, ht⟩ (0 : Fin 2) * 5000 + 5000
    omega
  | ⟨1, _⟩ =>
    show win0_5.index ⟨(i 0).val / 5000, ht⟩ (1 : Fin 2) * 128 ≤ (i 1).val
      ∧ (i 1).val < win0_5.index ⟨(i 0).val / 5000, ht⟩ (1 : Fin 2) * 128 + 128
    omega

/-- The output array after the region is the whole-array layer of the arrays the region found. -/
theorem arr0 (c : Dev nD) :
    (dat0 (F := Ideal) V c).arrAt 5 cfg0.N
      = layerG (V c main_v26) (V c main_arg0) (V c main_v28) (V c main_v30) (V c main_v32) :=
  (dat0 (F := Ideal) V c).arrAt_eq_of_cover 5 _ (fun t _ => region0_written_block V c t) region0_rows_covered

end Cert.Sage

end
-- ==== Proof.Block1.lean ====
import proofs.«112709_j37056977830621_1_alg».proof.Proof.Gen.KernelIdeal.Frame
import proofs.«112709_j37056977830621_1_alg».proof.Proof.Spec
import proofs.«112709_j37056977830621_1_alg».proof.Proof.BlockLib

/-!
# Layer 1's region: its output array as one function of the arrays it finds

The region runs the layer's body at 20 points; point t reads rows 5000·t … 5000·t + 4999 of the neighbour means and of
the nodes' rows, the whole weights and bias, and writes the same rows of the output. So what point t writes back is
block t of the whole-array layer, the 20 blocks cover the 100000 rows, and the output array ends as the layer of the
arrays the region found.
-/

set_option maxRecDepth 16384

noncomputable section

open scoped BigOperators

namespace Cert.Sage

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

/-- The arrays the region's six windows stage, in the call's operand order. -/
theorem region1_arrays : Pipeline.arrRef spec1 0 = main_v46 ∧ Pipeline.arrRef spec1 1 = main_v33 ∧ Pipeline.arrRef spec1 2 = main_v48
    ∧ Pipeline.arrRef spec1 3 = main_v50 ∧ Pipeline.arrRef spec1 4 = main_v52 ∧ Pipeline.arrRef spec1 5 = main_v53 :=
  ⟨rfl, rfl, rfl, rfl, rfl, rfl⟩

/-- Over the grid: the two row-block inputs and the output sit at block row t, every other block index is zero. -/
theorem region1_block_index : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 1) = 0
    ∧ win1_5.index t (0 : Fin 2) = t.val ∧ win1_5.index t (1 : Fin 2) = 0 :=
  (by decide +kernel : ∀ t : Fin grid1.N, _)

/-- Row p of the neighbour means' block at point t is row 5000·t + p of the array. -/
theorem region1_means_row (c : Dev nD) (t : Fin cfg1.N) (p : Fin 5000) (k : Fin 128) (i : S100000x128.Idx)
    (hi : (i 0).val = t.val * 5000 + p.val) :
    (iblk1 V c 0 t : Vec Ideal S5000x128 .f32) (ix2 p k) = (V c main_v46 : FVec Ideal S100000x128 .f32) (ix2 (i 0) k) := by
  obtain ⟨e0, e1, -⟩ := region1_block_index t
  show V c main_v46 (((cfg1.win 0).blk t).view.emb (ix2 p k)) = V c main_v46 (ix2 (i 0) k)
  refine congrArg _ (funext fun a => Fin.ext ?_)
  match a with
  | ⟨0, _⟩ => show win1_0.index t (0 : Fin 2) * 5000 + 1 * p.val = (i 0).val; omega
  | ⟨1, _⟩ => show win1_0.index t (1 : Fin 2) * 128 + 1 * k.val = k.val; omega

/-- Row p of the nodes' rows' block at point t is row 5000·t + p of the array. -/
theorem region1_nodes_row (c : Dev nD) (t : Fin cfg1.N) (p : Fin 5000) (k : Fin 128) (i : S100000x128.Idx)
    (hi : (i 0).val = t.val * 5000 + p.val) :
    (iblk1 V c 1 t : Vec Ideal S5000x128 .f32) (ix2 p k) = (V c main_v33 : FVec Ideal S100000x128 .f32) (ix2 (i 0) k) := by
  obtain ⟨-, -, e0, e1, -⟩ := region1_block_index t
  show V c main_v33 (((cfg1.win 1).blk t).view.emb (ix2 p k)) = V c main_v33 (ix2 (i 0) k)
  refine congrArg _ (funext fun a => Fin.ext ?_)
  match a with
  | ⟨0, _⟩ => show win1_1.index t (0 : Fin 2) * 5000 + 1 * p.val = (i 0).val; omega
  | ⟨1, _⟩ => show win1_1.index t (1 : Fin 2) * 128 + 1 * k.val = k.val; omega

/-- The first weight's block at every point is the whole array. -/
theorem region1_wl_whole (c : Dev nD) (t : Fin cfg1.N) :
    (iblk1 V c 2 t : Vec Ideal S128x128 .f32) = (V c main_v48 : FVec Ideal S128x128 .f32) := by
  obtain ⟨-, -, -, -, e0, e1, -⟩ := region1_block_index t
  funext y
  show V c main_v48 (((cfg1.win 2).blk t).view.emb y) = V c main_v48 y
  refine congrArg _ (funext fun a => Fin.ext ?_)
  match a with
  | ⟨0, _⟩ => show win1_2.index t (0 : Fin 2) * 128 + 1 * (y 0).val = (y 0).val; omega
  | ⟨1, _⟩ => show win1_2.index t (1 : Fin 2) * 128 + 1 * (y 1).val = (y 1).val; omega

/-- The second weight's block at every point is the whole array. -/
theorem region1_wr_whole (c : Dev nD) (t : Fin cfg1.N) :
    (iblk1 V c 3 t : Vec Ideal S128x128 .f32) = (V c main_v50 : FVec Ideal S128x128 .f32) := by
  obtain ⟨-, -, -, -, -, -, e0, e1, -⟩ := region1_block_index t
  funext y
  show V c main_v50 (((cfg1.win 3).blk t).view.emb y) = V c main_v50 y
  refine congrArg _ (funext fun a => Fin.ext ?_)
  match a with
  | ⟨0, _⟩ => show win1_3.index t (0 : Fin 2) * 128 + 1 * (y 0).val = (y 0).val; omega
  | ⟨1, _⟩ => show win1_3.index t (1 : Fin 2) * 128 + 1 * (y 1).val = (y 1).val; omega

/-- The bias's block at every point is the whole array. -/
theorem region1_bias_whole (c : Dev nD) (t : Fin cfg1.N) :
    (iblk1 V c 4 t : Vec Ideal S128 .f32) = (V c main_v52 : FVec Ideal S128 .f32) := by
  obtain ⟨-, -, -, -, -, -, -, -, e0, -⟩ := region1_block_index t
  funext y
  show V c main_v52 (((cfg1.win 4).blk t).view.emb y) = V c main_v52 y
  refine congrArg _ (funext fun a => Fin.ext ?_)
  match a with
  | ⟨0, _⟩ => show win1_4.index t (0 : Fin 1) * 128 + 1 * (y 0).val = (y 0).val; omega

/-- Entry j of what the body stores at point t is the whole-array layer at the entry of the output array that the
    output window's block puts j at. -/
theorem region1_stored_entry (c : Dev nD) (t : Fin cfg1.N) (j : S5000x128.Idx) :
    k1_pay1 (iblk1 V c 0 t) (iblk1 V c 1 t) (iblk1 V c 2 t) (iblk1 V c 3 t) (iblk1 V c 4 t) j
      = layerG (V c main_v46) (V c main_v33) (V c main_v48) (V c main_v50) (V c main_v52) (((cfg1.win 5).blk t).view.emb j) := by
  obtain ⟨p, q, rfl⟩ : ∃ (p : Fin 5000) (q : Fin 128), j = ix2 p q := ⟨j 0, j 1, eq_ix2 j⟩
  obtain ⟨-, -, -, -, -, -, -, -, -, e0, e1⟩ := region1_block_index t
  have hrow : ((((cfg1.win 5).blk t).view.emb (ix2 p q) : S100000x128.Idx) 0).val = t.val * 5000 + p.val := by
    show win1_5.index t (0 : Fin 2) * 5000 + 1 * p.val = _; omega
  refine layer1_block_entry _ _ _ _ _ _ _ _ _ _ p q _ (fun k => region1_means_row V c t p k _ hrow)
    (fun k => region1_nodes_row V c t p k _ hrow) (region1_wl_whole V c t) (region1_wr_whole V c t)
    (region1_bias_whole V c t) (Fin.ext ?_)
  show win1_5.index t (1 : Fin 2) * 128 + 1 * q.val = q.val; omega

/-- What point t writes back is block t of the whole-array layer. -/
theorem region1_written_block (c : Dev nD) (t : Fin cfg1.N) :
    (dat1 (F := Ideal) V c).flushed 5 t
      = ((cfg1.win 5).blk t).view.read (Elt Ideal) (layerG (V c main_v46) (V c main_v33) (V c main_v48) (V c main_v50) (V c main_v52)) := by
  show (cfg1.win 5).cut (grid1.coords t) ((dat1 V c).after 5 t) = _
  rw [after1_5]
  unfold out1_5
  rw [View.canon_unit_zero zero_off2]
  simp only [View.ld_unit_zero (S := S5000x128) zero_off2, View.ld_unit_zero (S := S128x128) zero_off2,
    View.ld_unit_zero (S := S128) zero_off1]
  funext j
  exact region1_stored_entry V c t j

/-- An entry of the output array is in point t's block iff each coordinate is in the block's range on its axis. -/
theorem region1_mem_block (t : Fin cfg1.N) (i : S100000x128.Idx) :
    i ∈ ((cfg1.win 5).blk t).view.set ↔ ∀ a : Fin 2, win1_5.index t a * S5000x128.size a ≤ (i a).val
      ∧ (i a).val < win1_5.index t a * S5000x128.size a + S5000x128.size a := by
  show i ∈ ((View.whole main_v53).slice (win1_5.rect t)).set ↔ _
  rw [View.set_slice_whole, Rect.mem_set_unit]
  exact Iff.rfl

/-- Row r of the output array is in the block of point r / 5000. -/
theorem region1_rows_covered (i : S100000x128.Idx) :
    ∃ t : Fin cfg1.N, (cfg1.win 5).flush t = true ∧ i ∈ ((cfg1.win 5).blk t).view.set := by
  have hi0 : (i 0).val < 100000 := (i 0).isLt
  have hi1 : (i 1).val < 128 := (i 1).isLt
  have hN : grid1.N = 20 := N_1
  have ht : (i 0).val / 5000 < cfg1.N := by show (i 0).val / 5000 < grid1.N; rw [hN]; omega
  obtain ⟨-, -, -, -, -, -, -, -, -, e0, e1⟩ := region1_block_index ⟨(i 0).val / 5000, ht⟩
  have e0' : win1_5.index ⟨(i 0).val / 5000, ht⟩ (0 : Fin 2) = (i 0).val / 5000 := e0
  refine ⟨⟨(i 0).val / 5000, ht⟩, flush1_5 _, ?_⟩
  rw [region1_mem_block]
  intro a
  match a with
  | ⟨0, _⟩ =>
    show win1_5.index ⟨(i 0).val / 5000, ht⟩ (0 : Fin 2) * 5000 ≤ (i 0).val
      ∧ (i 0).val < win1_5.index ⟨(i 0).val / 5000, ht⟩ (0 : Fin 2) * 5000 + 5000
    omega
  | ⟨1, _⟩ =>
    show win1_5.index ⟨(i 0).val / 5000, ht⟩ (1 : Fin 2) * 128 ≤ (i 1).val
      ∧ (i 1).val < win1_5.index ⟨(i 0).val / 5000, ht⟩ (1 : Fin 2) * 128 + 128
    omega

/-- The output array after the region is the whole-array layer of the arrays the region found. -/
theorem arr1 (c : Dev nD) :
    (dat1 (F := Ideal) V c).arrAt 5 cfg1.N
      = layerG (V c main_v46) (V c main_v33) (V c main_v48) (V c main_v50) (V c main_v52) :=
  (dat1 (F := Ideal) V c).arrAt_eq_of_cover 5 _ (fun t _ => region1_written_block V c t) region1_rows_covered

end Cert.Sage

end
-- ==== Proof.Block2.lean ====
import proofs.«112709_j37056977830621_1_alg».proof.Proof.Gen.KernelIdeal.Frame
import proofs.«112709_j37056977830621_1_alg».proof.Proof.Spec
import proofs.«112709_j37056977830621_1_alg».proof.Proof.BlockLib

/-!
# Layer 2's region: its output array as one function of the arrays it finds

The region runs the layer's body at 20 points; point t reads rows 5000·t … 5000·t + 4999 of the neighbour means and of
the nodes' rows, the whole weights and bias, and writes the same rows of the output. So what point t writes back is
block t of the whole-array layer, the 20 blocks cover the 100000 rows, and the output array ends as the layer of the
arrays the region found.
-/

set_option maxRecDepth 16384

noncomputable section

open scoped BigOperators

namespace Cert.Sage

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

/-- The arrays the region's six windows stage, in the call's operand order. -/
theorem region2_arrays : Pipeline.arrRef spec2 0 = main_v66 ∧ Pipeline.arrRef spec2 1 = main_v53 ∧ Pipeline.arrRef spec2 2 = main_v68
    ∧ Pipeline.arrRef spec2 3 = main_v70 ∧ Pipeline.arrRef spec2 4 = main_v72 ∧ Pipeline.arrRef spec2 5 = main_v73 :=
  ⟨rfl, rfl, rfl, rfl, rfl, rfl⟩

/-- Over the grid: the two row-block inputs and the output sit at block row t, every other block index is zero. -/
theorem region2_block_index : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 1) = 0
    ∧ win2_5.index t (0 : Fin 2) = t.val ∧ win2_5.index t (1 : Fin 2) = 0 :=
  (by decide +kernel : ∀ t : Fin grid2.N, _)

/-- Row p of the neighbour means' block at point t is row 5000·t + p of the array. -/
theorem region2_means_row (c : Dev nD) (t : Fin cfg2.N) (p : Fin 5000) (k : Fin 128) (i : S100000x128.Idx)
    (hi : (i 0).val = t.val * 5000 + p.val) :
    (iblk2 V c 0 t : Vec Ideal S5000x128 .f32) (ix2 p k) = (V c main_v66 : FVec Ideal S100000x128 .f32) (ix2 (i 0) k) := by
  obtain ⟨e0, e1, -⟩ := region2_block_index t
  show V c main_v66 (((cfg2.win 0).blk t).view.emb (ix2 p k)) = V c main_v66 (ix2 (i 0) k)
  refine congrArg _ (funext fun a => Fin.ext ?_)
  match a with
  | ⟨0, _⟩ => show win2_0.index t (0 : Fin 2) * 5000 + 1 * p.val = (i 0).val; omega
  | ⟨1, _⟩ => show win2_0.index t (1 : Fin 2) * 128 + 1 * k.val = k.val; omega

/-- Row p of the nodes' rows' block at point t is row 5000·t + p of the array. -/
theorem region2_nodes_row (c : Dev nD) (t : Fin cfg2.N) (p : Fin 5000) (k : Fin 128) (i : S100000x128.Idx)
    (hi : (i 0).val = t.val * 5000 + p.val) :
    (iblk2 V c 1 t : Vec Ideal S5000x128 .f32) (ix2 p k) = (V c main_v53 : FVec Ideal S100000x128 .f32) (ix2 (i 0) k) := by
  obtain ⟨-, -, e0, e1, -⟩ := region2_block_index t
  show V c main_v53 (((cfg2.win 1).blk t).view.emb (ix2 p k)) = V c main_v53 (ix2 (i 0) k)
  refine congrArg _ (funext fun a => Fin.ext ?_)
  match a with
  | ⟨0, _⟩ => show win2_1.index t (0 : Fin 2) * 5000 + 1 * p.val = (i 0).val; omega
  | ⟨1, _⟩ => show win2_1.index t (1 : Fin 2) * 128 + 1 * k.val = k.val; omega

/-- The first weight's block at every point is the whole array. -/
theorem region2_wl_whole (c : Dev nD) (t : Fin cfg2.N) :
    (iblk2 V c 2 t : Vec Ideal S128x128 .f32) = (V c main_v68 : FVec Ideal S128x128 .f32) := by
  obtain ⟨-, -, -, -, e0, e1, -⟩ := region2_block_index t
  funext y
  show V c main_v68 (((cfg2.win 2).blk t).view.emb y) = V c main_v68 y
  refine congrArg _ (funext fun a => Fin.ext ?_)
  match a with
  | ⟨0, _⟩ => show win2_2.index t (0 : Fin 2) * 128 + 1 * (y 0).val = (y 0).val; omega
  | ⟨1, _⟩ => show win2_2.index t (1 : Fin 2) * 128 + 1 * (y 1).val = (y 1).val; omega

/-- The second weight's block at every point is the whole array. -/
theorem region2_wr_whole (c : Dev nD) (t : Fin cfg2.N) :
    (iblk2 V c 3 t : Vec Ideal S128x128 .f32) = (V c main_v70 : FVec Ideal S128x128 .f32) := by
  obtain ⟨-, -, -, -, -, -, e0, e1, -⟩ := region2_block_index t
  funext y
  show V c main_v70 (((cfg2.win 3).blk t).view.emb y) = V c main_v70 y
  refine congrArg _ (funext fun a => Fin.ext ?_)
  match a with
  | ⟨0, _⟩ => show win2_3.index t (0 : Fin 2) * 128 + 1 * (y 0).val = (y 0).val; omega
  | ⟨1, _⟩ => show win2_3.index t (1 : Fin 2) * 128 + 1 * (y 1).val = (y 1).val; omega

/-- The bias's block at every point is the whole array. -/
theorem region2_bias_whole (c : Dev nD) (t : Fin cfg2.N) :
    (iblk2 V c 4 t : Vec Ideal S128 .f32) = (V c main_v72 : FVec Ideal S128 .f32) := by
  obtain ⟨-, -, -, -, -, -, -, -, e0, -⟩ := region2_block_index t
  funext y
  show V c main_v72 (((cfg2.win 4).blk t).view.emb y) = V c main_v72 y
  refine congrArg _ (funext fun a => Fin.ext ?_)
  match a with
  | ⟨0, _⟩ => show win2_4.index t (0 : Fin 1) * 128 + 1 * (y 0).val = (y 0).val; omega

/-- Entry j of what the body stores at point t is the whole-array layer at the entry of the output array that the
    output window's block puts j at. -/
theorem region2_stored_entry (c : Dev nD) (t : Fin cfg2.N) (j : S5000x128.Idx) :
    k2_pay1 (iblk2 V c 0 t) (iblk2 V c 1 t) (iblk2 V c 2 t) (iblk2 V c 3 t) (iblk2 V c 4 t) j
      = layerG (V c main_v66) (V c main_v53) (V c main_v68) (V c main_v70) (V c main_v72) (((cfg2.win 5).blk t).view.emb j) := by
  obtain ⟨p, q, rfl⟩ : ∃ (p : Fin 5000) (q : Fin 128), j = ix2 p q := ⟨j 0, j 1, eq_ix2 j⟩
  obtain ⟨-, -, -, -, -, -, -, -, -, e0, e1⟩ := region2_block_index t
  have hrow : ((((cfg2.win 5).blk t).view.emb (ix2 p q) : S100000x128.Idx) 0).val = t.val * 5000 + p.val := by
    show win2_5.index t (0 : Fin 2) * 5000 + 1 * p.val = _; omega
  refine layer2_block_entry _ _ _ _ _ _ _ _ _ _ p q _ (fun k => region2_means_row V c t p k _ hrow)
    (fun k => region2_nodes_row V c t p k _ hrow) (region2_wl_whole V c t) (region2_wr_whole V c t)
    (region2_bias_whole V c t) (Fin.ext ?_)
  show win2_5.index t (1 : Fin 2) * 128 + 1 * q.val = q.val; omega

/-- What point t writes back is block t of the whole-array layer. -/
theorem region2_written_block (c : Dev nD) (t : Fin cfg2.N) :
    (dat2 (F := Ideal) V c).flushed 5 t
      = ((cfg2.win 5).blk t).view.read (Elt Ideal) (layerG (V c main_v66) (V c main_v53) (V c main_v68) (V c main_v70) (V c main_v72)) := by
  show (cfg2.win 5).cut (grid2.coords t) ((dat2 V c).after 5 t) = _
  rw [after2_5]
  unfold out2_5
  rw [View.canon_unit_zero zero_off2]
  simp only [View.ld_unit_zero (S := S5000x128) zero_off2, View.ld_unit_zero (S := S128x128) zero_off2,
    View.ld_unit_zero (S := S128) zero_off1]
  funext j
  exact region2_stored_entry V c t j

/-- An entry of the output array is in point t's block iff each coordinate is in the block's range on its axis. -/
theorem region2_mem_block (t : Fin cfg2.N) (i : S100000x128.Idx) :
    i ∈ ((cfg2.win 5).blk t).view.set ↔ ∀ a : Fin 2, win2_5.index t a * S5000x128.size a ≤ (i a).val
      ∧ (i a).val < win2_5.index t a * S5000x128.size a + S5000x128.size a := by
  show i ∈ ((View.whole main_v73).slice (win2_5.rect t)).set ↔ _
  rw [View.set_slice_whole, Rect.mem_set_unit]
  exact Iff.rfl

/-- Row r of the output array is in the block of point r / 5000. -/
theorem region2_rows_covered (i : S100000x128.Idx) :
    ∃ t : Fin cfg2.N, (cfg2.win 5).flush t = true ∧ i ∈ ((cfg2.win 5).blk t).view.set := by
  have hi0 : (i 0).val < 100000 := (i 0).isLt
  have hi1 : (i 1).val < 128 := (i 1).isLt
  have hN : grid2.N = 20 := N_2
  have ht : (i 0).val / 5000 < cfg2.N := by show (i 0).val / 5000 < grid2.N; rw [hN]; omega
  obtain ⟨-, -, -, -, -, -, -, -, -, e0, e1⟩ := region2_block_index ⟨(i 0).val / 5000, ht⟩
  have e0' : win2_5.index ⟨(i 0).val / 5000, ht⟩ (0 : Fin 2) = (i 0).val / 5000 := e0
  refine ⟨⟨(i 0).val / 5000, ht⟩, flush2_5 _, ?_⟩
  rw [region2_mem_block]
  intro a
  match a with
  | ⟨0, _⟩ =>
    show win2_5.index ⟨(i 0).val / 5000, ht⟩ (0 : Fin 2) * 5000 ≤ (i 0).val
      ∧ (i 0).val < win2_5.index ⟨(i 0).val / 5000, ht⟩ (0 : Fin 2) * 5000 + 5000
    omega
  | ⟨1, _⟩ =>
    show win2_5.index ⟨(i 0).val / 5000, ht⟩ (1 : Fin 2) * 128 ≤ (i 1).val
      ∧ (i 1).val < win2_5.index ⟨(i 0).val / 5000, ht⟩ (1 : Fin 2) * 128 + 128
    omega

/-- The output array after the region is the whole-array layer of the arrays the region found. -/
theorem arr2 (c : Dev nD) :
    (dat2 (F := Ideal) V c).arrAt 5 cfg2.N
      = layerG (V c main_v66) (V c main_v53) (V c main_v68) (V c main_v70) (V c main_v72) :=
  (dat2 (F := Ideal) V c).arrAt_eq_of_cover 5 _ (fun t _ => region2_written_block V c t) region2_rows_covered

end Cert.Sage

end
-- ==== Proof.Block3.lean ====
import proofs.«112709_j37056977830621_1_alg».proof.Proof.Gen.KernelIdeal.Frame
import proofs.«112709_j37056977830621_1_alg».proof.Proof.Spec
import proofs.«112709_j37056977830621_1_alg».proof.Proof.BlockLib

/-!
# The read-out's region: its output array as one function of the arrays it finds

The region runs the read-out's body at 20 points; point t reads rows 5000·t … 5000·t + 4999 of the nodes' rows, the
whole weight and bias, and writes the same rows of the output. So what point t writes back is block t of the
whole-array read-out, the 20 blocks cover the 100000 rows, and the output array ends as the read-out of the arrays the
region found.
-/

set_option maxRecDepth 16384

noncomputable section

open scoped BigOperators

namespace Cert.Sage

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

/-- The arrays the region's four windows stage, in the call's operand order. -/
theorem region3_arrays : Pipeline.arrRef spec3 0 = main_v73 ∧ Pipeline.arrRef spec3 1 = main_v77 ∧ Pipeline.arrRef spec3 2 = main_v80
    ∧ Pipeline.arrRef spec3 3 = main_v81 :=
  ⟨rfl, rfl, rfl, rfl⟩

/-- Over the grid: the row-block input and the output sit at block row t, every other block index is zero. -/
theorem region3_block_index : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 1) = 0
    ∧ win3_3.index t (0 : Fin 2) = t.val ∧ win3_3.index t (1 : Fin 2) = 0 :=
  (by decide +kernel : ∀ t : Fin grid3.N, _)

/-- Row p of the nodes' rows' block at point t is row 5000·t + p of the array. -/
theorem region3_nodes_row (c : Dev nD) (t : Fin cfg3.N) (p : Fin 5000) (k : Fin 128) (i : S100000x128.Idx)
    (hi : (i 0).val = t.val * 5000 + p.val) :
    (iblk3 V c 0 t : Vec Ideal S5000x128 .f32) (ix2 p k) = (V c main_v73 : FVec Ideal S100000x128 .f32) (ix2 (i 0) k) := by
  obtain ⟨e0, e1, -⟩ := region3_block_index t
  show V c main_v73 (((cfg3.win 0).blk t).view.emb (ix2 p k)) = V c main_v73 (ix2 (i 0) k)
  refine congrArg _ (funext fun a => Fin.ext ?_)
  match a with
  | ⟨0, _⟩ => show win3_0.index t (0 : Fin 2) * 5000 + 1 * p.val = (i 0).val; omega
  | ⟨1, _⟩ => show win3_0.index t (1 : Fin 2) * 128 + 1 * k.val = k.val; omega

/-- The weight's block at every point is the whole array. -/
theorem region3_weight_whole (c : Dev nD) (t : Fin cfg3.N) :
    (iblk3 V c 1 t : Vec Ideal S128x128 .f32) = (V c main_v77 : FVec Ideal S128x128 .f32) := by
  obtain ⟨-, -, e0, e1, -⟩ := region3_block_index t
  funext y
  show V c main_v77 (((cfg3.win 1).blk t).view.emb y) = V c main_v77 y
  refine congrArg _ (funext fun a => Fin.ext ?_)
  match a with
  | ⟨0, _⟩ => show win3_1.index t (0 : Fin 2) * 128 + 1 * (y 0).val = (y 0).val; omega
  | ⟨1, _⟩ => show win3_1.index t (1 : Fin 2) * 128 + 1 * (y 1).val = (y 1).val; omega

/-- The bias's block at every point is the whole array. -/
theorem region3_bias_whole (c : Dev nD) (t : Fin cfg3.N) :
    (iblk3 V c 2 t : Vec Ideal S128 .f32) = (V c main_v80 : FVec Ideal S128 .f32) := by
  obtain ⟨-, -, -, -, e0, -⟩ := region3_block_index t
  funext y
  show V c main_v80 (((cfg3.win 2).blk t).view.emb y) = V c main_v80 y
  refine congrArg _ (funext fun a => Fin.ext ?_)
  match a with
  | ⟨0, _⟩ => show win3_2.index t (0 : Fin 1) * 128 + 1 * (y 0).val = (y 0).val; omega

/-- Entry j of what the body stores at point t is the whole-array read-out at the entry of the output array that the
    output window's block puts j at. -/
theorem region3_stored_entry (c : Dev nD) (t : Fin cfg3.N) (j : S5000x128.Idx) :
    k3_pay1 (iblk3 V c 0 t) (iblk3 V c 1 t) (iblk3 V c 2 t) j
      = outG (V c main_v73) (V c main_v77) (V c main_v80) (((cfg3.win 3).blk t).view.emb j) := by
  obtain ⟨p, q, rfl⟩ : ∃ (p : Fin 5000) (q : Fin 128), j = ix2 p q := ⟨j 0, j 1, eq_ix2 j⟩
  obtain ⟨-, -, -, -, -, e0, e1⟩ := region3_block_index t
  have hrow : ((((cfg3.win 3).blk t).view.emb (ix2 p q) : S100000x128.Idx) 0).val = t.val * 5000 + p.val := by
    show win3_3.index t (0 : Fin 2) * 5000 + 1 * p.val = _; omega
  refine readout_block_entry _ _ _ _ _ _ p q _ (fun k => region3_nodes_row V c t p k _ hrow)
    (region3_weight_whole V c t) (region3_bias_whole V c t) (Fin.ext ?_)
  show win3_3.index t (1 : Fin 2) * 128 + 1 * q.val = q.val; omega

/-- What point t writes back is block t of the whole-array read-out. -/
theorem region3_written_block (c : Dev nD) (t : Fin cfg3.N) :
    (dat3 (F := Ideal) V c).flushed 3 t
      = ((cfg3.win 3).blk t).view.read (Elt Ideal) (outG (V c main_v73) (V c main_v77) (V c main_v80)) := by
  show (cfg3.win 3).cut (grid3.coords t) ((dat3 V c).after 3 t) = _
  rw [after3_3]
  unfold out3_3
  rw [View.canon_unit_zero zero_off2]
  simp only [View.ld_unit_zero (S := S5000x128) zero_off2, View.ld_unit_zero (S := S128x128) zero_off2,
    View.ld_unit_zero (S := S128) zero_off1]
  funext j
  exact region3_stored_entry V c t j

/-- An entry of the output array is in point t's block iff each coordinate is in the block's range on its axis. -/
theorem region3_mem_block (t : Fin cfg3.N) (i : S100000x128.Idx) :
    i ∈ ((cfg3.win 3).blk t).view.set ↔ ∀ a : Fin 2, win3_3.index t a * S5000x128.size a ≤ (i a).val
      ∧ (i a).val < win3_3.index t a * S5000x128.size a + S5000x128.size a := by
  show i ∈ ((View.whole main_v81).slice (win3_3.rect t)).set ↔ _
  rw [View.set_slice_whole, Rect.mem_set_unit]
  exact Iff.rfl

/-- Row r of the output array is in the block of point r / 5000. -/
theorem region3_rows_covered (i : S100000x128.Idx) :
    ∃ t : Fin cfg3.N, (cfg3.win 3).flush t = true ∧ i ∈ ((cfg3.win 3).blk t).view.set := by
  have hi0 : (i 0).val < 100000 := (i 0).isLt
  have hi1 : (i 1).val < 128 := (i 1).isLt
  have hN : grid3.N = 20 := N_3
  have ht : (i 0).val / 5000 < cfg3.N := by show (i 0).val / 5000 < grid3.N; rw [hN]; omega
  obtain ⟨-, -, -, -, -, e0, e1⟩ := region3_block_index ⟨(i 0).val / 5000, ht⟩
  have e0' : win3_3.index ⟨(i 0).val / 5000, ht⟩ (0 : Fin 2) = (i 0).val / 5000 := e0
  refine ⟨⟨(i 0).val / 5000, ht⟩, flush3_3 _, ?_⟩
  rw [region3_mem_block]
  intro a
  match a with
  | ⟨0, _⟩ =>
    show win3_3.index ⟨(i 0).val / 5000, ht⟩ (0 : Fin 2) * 5000 ≤ (i 0).val
      ∧ (i 0).val < win3_3.index ⟨(i 0).val / 5000, ht⟩ (0 : Fin 2) * 5000 + 5000
    omega
  | ⟨1, _⟩ =>
    show win3_3.index ⟨(i 0).val / 5000, ht⟩ (1 : Fin 2) * 128 ≤ (i 1).val
      ∧ (i 1).val < win3_3.index ⟨(i 0).val / 5000, ht⟩ (1 : Fin 2) * 128 + 128
    omega

/-- The output array after the region is the whole-array read-out of the arrays the region found. -/
theorem arr3 (c : Dev nD) :
    (dat3 (F := Ideal) V c).arrAt 3 cfg3.N = outG (V c main_v73) (V c main_v77) (V c main_v80) :=
  (dat3 (F := Ideal) V c).arrAt_eq_of_cover 3 _ (fun t _ => region3_written_block V c t) region3_rows_covered

end Cert.Sage

end
-- ==== Proof.KernelRun.lean ====
import proofs.«112709_j37056977830621_1_alg».proof.Proof.Gen.KernelIdeal.Frame

/-!
# The kernel program's run, with every unscoped buffer named

Every weakly fair execution of the kernel program terminates without a fault, and in the final state every
unscoped buffer of a core holds the contents the last segment boundary gives it: the fold of the host stretches'
results and the regions' written-back arrays from the launch memory. The argument arrays and the result are all
read off this one statement.
-/

set_option maxRecDepth 16384

noncomputable section

namespace Cert.Sage

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the segments' launch, the last thread state read against the final state, every unscoped buffer at the
    last boundary's contents. -/
theorem run_named : θ_run defs (onTc (τ := τ) (main (F := F))) ⟨m, fun _ => 0, ρ⟩ (fun r => ∀ c : Dev nD,
      ∀ b : Ref sig .tc, ¬ (Proc.devRef .tc b : DevRef τ sig).isScoped →
        r.2.mem ((c.tc : Thread nD τ).loc b) = W9 m ρ c (Proc.devRef .tc b)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c b hb => h c _ (mem_uc b hb))

end Cert.Sage

end
-- ==== Proof.KVHost.lean ====
/-
  What the kernel program's host stretches leave in the buffers the regions and the later stretches read, as
  functions of the argument arrays: the edge lists, the reciprocal in-degrees, the transposed weights, the first
  layer's inputs; and that no region and no later stretch changes them.
-/
import proofs.«112709_j37056977830621_1_alg».proof.Proof.Gen.KernelIdeal.Frame
import proofs.«112709_j37056977830621_1_alg».proof.Proof.Spec

set_option maxRecDepth 16384

noncomputable section

namespace Cert.Sage

open Idealize.ShloMosaic Idealize.ShloMosaic.TcCoe Idealize.SL.Sem Idealize.ShloMosaic.StableHlo
open Idealize.ShloMosaic.Pipeline (Dat Cfg Window)
open Cert.KernelIdeal Cert.KernelIdeal.Gen Cert.KernelIdeal.Facts₀

variable (m : (ℓ : Loc nD τ sig) → Buf (Elt Ideal) ℓ) (ρ : Dev nD → PrngReg) (c : Dev nD)

/-! ## What the first stretch leaves, as functions of the arguments -/

theorem at1_main_v1 : W1 m ρ c (Proc.devRef .tc main_v1) = srcK (m ((c.tc : Thread nD τ).loc main_arg1)) := by
  show StableHlo.after hostOps0 (W0 m ρ c) (Proc.devRef .tc main_v1) = _
  after_results_simp <;> rfl

theorem at1_main_v3 : W1 m ρ c (Proc.devRef .tc main_v3) = dstK (m ((c.tc : Thread nD τ).loc main_arg1)) := by
  show StableHlo.after hostOps0 (W0 m ρ c) (Proc.devRef .tc main_v3) = _
  after_results_simp <;> rfl

theorem at1_main_v11 : W1 m ρ c (Proc.devRef .tc main_v11) = invK (m ((c.tc : Thread nD τ).loc main_arg1)) := by
  show StableHlo.after hostOps0 (W0 m ρ c) (Proc.devRef .tc main_v11) = _
  after_results_simp <;> rfl

theorem at1_main_v12 : W1 m ρ c (Proc.devRef .tc main_v12) = transpose S3x128x128 [0, 2, 1] (m ((c.tc : Thread nD τ).loc main_arg2)) Facts₀.transposes_S3x128x128_S3x128x128_0_2_1 := by
  show StableHlo.after hostOps0 (W0 m ρ c) (Proc.devRef .tc main_v12) = _
  after_results_simp <;> rfl

theorem at1_main_v13 : W1 m ρ c (Proc.devRef .tc main_v13) = transpose S3x128x128 [0, 2, 1] (m ((c.tc : Thread nD τ).loc main_arg4)) Facts₀.transposes_S3x128x128_S3x128x128_0_2_1 := by
  show StableHlo.after hostOps0 (W0 m ρ c) (Proc.devRef .tc main_v13) = _
  after_results_simp <;> rfl

theorem at1_main_arg3 : W1 m ρ c (Proc.devRef .tc main_arg3) = (m ((c.tc : Thread nD τ).loc main_arg3)) := by
  show StableHlo.after hostOps0 (W0 m ρ c) (Proc.devRef .tc main_arg3) = _
  after_results_simp <;> rfl

theorem at1_main_arg5 : W1 m ρ c (Proc.devRef .tc main_arg5) = (m ((c.tc : Thread nD τ).loc main_arg5)) := by
  show StableHlo.after hostOps0 (W0 m ρ c) (Proc.devRef .tc main_arg5) = _
  after_results_simp <;> rfl

theorem at1_main_arg6 : W1 m ρ c (Proc.devRef .tc main_arg6) = (m ((c.tc : Thread nD τ).loc main_arg6)) := by
  show StableHlo.after hostOps0 (W0 m ρ c) (Proc.devRef .tc main_arg6) = _
  after_results_simp <;> rfl

theorem at1_main_v26 : W1 m ρ c (Proc.devRef .tc main_v26) = aggK (m ((c.tc : Thread nD τ).loc main_arg1)) (m ((c.tc : Thread nD τ).loc main_arg0)) := by
  show StableHlo.after hostOps0 (W0 m ρ c) (Proc.devRef .tc main_v26) = _
  after_results_simp <;> rfl

theorem at1_main_arg0 : W1 m ρ c (Proc.devRef .tc main_arg0) = (m ((c.tc : Thread nD τ).loc main_arg0)) := by
  show StableHlo.after hostOps0 (W0 m ρ c) (Proc.devRef .tc main_arg0) = _
  after_results_simp <;> rfl

theorem at1_main_v28 : W1 m ρ c (Proc.devRef .tc main_v28) = wT0K (m ((c.tc : Thread nD τ).loc main_arg2)) := by
  show StableHlo.after hostOps0 (W0 m ρ c) (Proc.devRef .tc main_v28) = _
  after_results_simp <;> rfl

theorem at1_main_v30 : W1 m ρ c (Proc.devRef .tc main_v30) = wT0K (m ((c.tc : Thread nD τ).loc main_arg4)) := by
  show StableHlo.after hostOps0 (W0 m ρ c) (Proc.devRef .tc main_v30) = _
  after_results_simp <;> rfl

theorem at1_main_v32 : W1 m ρ c (Proc.devRef .tc main_v32) = b0K (m ((c.tc : Thread nD τ).loc main_arg3)) := by
  show StableHlo.after hostOps0 (W0 m ρ c) (Proc.devRef .tc main_v32) = _
  after_results_simp <;> rfl

/-! ## Buffers no region and no later stretch writes keep those contents -/
theorem at2_main_v1 : W2 m ρ c (Proc.devRef .tc main_v1) = srcK (m ((c.tc : Thread nD τ).loc main_arg1)) :=
  (W2_of_ne m ρ c main_v1 (by decide)).trans (at1_main_v1 m ρ c)
theorem at3_main_v1 : W3 m ρ c (Proc.devRef .tc main_v1) = srcK (m ((c.tc : Thread nD τ).loc main_arg1)) := by
  show StableHlo.after hostOps1 (W2 m ρ c) (Proc.devRef .tc main_v1) = _
  after_results_simp
  exact at2_main_v1 m ρ c
theorem at4_main_v1 : W4 m ρ c (Proc.devRef .tc main_v1) = srcK (m ((c.tc : Thread nD τ).loc main_arg1)) :=
  (W4_of_ne m ρ c main_v1 (by decide)).trans (at3_main_v1 m ρ c)
theorem at2_main_v3 : W2 m ρ c (Proc.devRef .tc main_v3) = dstK (m ((c.tc : Thread nD τ).loc main_arg1)) :=
  (W2_of_ne m ρ c main_v3 (by decide)).trans (at1_main_v3 m ρ c)
theorem at3_main_v3 : W3 m ρ c (Proc.devRef .tc main_v3) = dstK (m ((c.tc : Thread nD τ).loc main_arg1)) := by
  show StableHlo.after hostOps1 (W2 m ρ c) (Proc.devRef .tc main_v3) = _
  after_results_simp
  exact at2_main_v3 m ρ c
theorem at4_main_v3 : W4 m ρ c (Proc.devRef .tc main_v3) = dstK (m ((c.tc : Thread nD τ).loc main_arg1)) :=
  (W4_of_ne m ρ c main_v3 (by decide)).trans (at3_main_v3 m ρ c)
theorem at2_main_v11 : W2 m ρ c (Proc.devRef .tc main_v11) = invK (m ((c.tc : Thread nD τ).loc main_arg1)) :=
  (W2_of_ne m ρ c main_v11 (by decide)).trans (at1_main_v11 m ρ c)
theorem at3_main_v11 : W3 m ρ c (Proc.devRef .tc main_v11) = invK (m ((c.tc : Thread nD τ).loc main_arg1)) := by
  show StableHlo.after hostOps1 (W2 m ρ c) (Proc.devRef .tc main_v11) = _
  after_results_simp
  exact at2_main_v11 m ρ c
theorem at4_main_v11 : W4 m ρ c (Proc.devRef .tc main_v11) = invK (m ((c.tc : Thread nD τ).loc main_arg1)) :=
  (W4_of_ne m ρ c main_v11 (by decide)).trans (at3_main_v11 m ρ c)
theorem at2_main_v12 : W2 m ρ c (Proc.devRef .tc main_v12) = transpose S3x128x128 [0, 2, 1] (m ((c.tc : Thread nD τ).loc main_arg2)) Facts₀.transposes_S3x128x128_S3x128x128_0_2_1 :=
  (W2_of_ne m ρ c main_v12 (by decide)).trans (at1_main_v12 m ρ c)
theorem at3_main_v12 : W3 m ρ c (Proc.devRef .tc main_v12) = transpose S3x128x128 [0, 2, 1] (m ((c.tc : Thread nD τ).loc main_arg2)) Facts₀.transposes_S3x128x128_S3x128x128_0_2_1 := by
  show StableHlo.after hostOps1 (W2 m ρ c) (Proc.devRef .tc main_v12) = _
  after_results_simp
  exact at2_main_v12 m ρ c
theorem at4_main_v12 : W4 m ρ c (Proc.devRef .tc main_v12) = transpose S3x128x128 [0, 2, 1] (m ((c.tc : Thread nD τ).loc main_arg2)) Facts₀.transposes_S3x128x128_S3x128x128_0_2_1 :=
  (W4_of_ne m ρ c main_v12 (by decide)).trans (at3_main_v12 m ρ c)
theorem at2_main_v13 : W2 m ρ c (Proc.devRef .tc main_v13) = transpose S3x128x128 [0, 2, 1] (m ((c.tc : Thread nD τ).loc main_arg4)) Facts₀.transposes_S3x128x128_S3x128x128_0_2_1 :=
  (W2_of_ne m ρ c main_v13 (by decide)).trans (at1_main_v13 m ρ c)
theorem at3_main_v13 : W3 m ρ c (Proc.devRef .tc main_v13) = transpose S3x128x128 [0, 2, 1] (m ((c.tc : Thread nD τ).loc main_arg4)) Facts₀.transposes_S3x128x128_S3x128x128_0_2_1 := by
  show StableHlo.after hostOps1 (W2 m ρ c) (Proc.devRef .tc main_v13) = _
  after_results_simp
  exact at2_main_v13 m ρ c
theorem at4_main_v13 : W4 m ρ c (Proc.devRef .tc main_v13) = transpose S3x128x128 [0, 2, 1] (m ((c.tc : Thread nD τ).loc main_arg4)) Facts₀.transposes_S3x128x128_S3x128x128_0_2_1 :=
  (W4_of_ne m ρ c main_v13 (by decide)).trans (at3_main_v13 m ρ c)
theorem at2_main_arg3 : W2 m ρ c (Proc.devRef .tc main_arg3) = (m ((c.tc : Thread nD τ).loc main_arg3)) :=
  (W2_of_ne m ρ c main_arg3 (by decide)).trans (at1_main_arg3 m ρ c)
theorem at3_main_arg3 : W3 m ρ c (Proc.devRef .tc main_arg3) = (m ((c.tc : Thread nD τ).loc main_arg3)) := by
  show StableHlo.after hostOps1 (W2 m ρ c) (Proc.devRef .tc main_arg3) = _
  after_results_simp
  exact at2_main_arg3 m ρ c
theorem at4_main_arg3 : W4 m ρ c (Proc.devRef .tc main_arg3) = (m ((c.tc : Thread nD τ).loc main_arg3)) :=
  (W4_of_ne m ρ c main_arg3 (by decide)).trans (at3_main_arg3 m ρ c)
theorem at2_main_arg5 : W2 m ρ c (Proc.devRef .tc main_arg5) = (m ((c.tc : Thread nD τ).loc main_arg5)) :=
  (W2_of_ne m ρ c main_arg5 (by decide)).trans (at1_main_arg5 m ρ c)
theorem at3_main_arg5 : W3 m ρ c (Proc.devRef .tc main_arg5) = (m ((c.tc : Thread nD τ).loc main_arg5)) := by
  show StableHlo.after hostOps1 (W2 m ρ c) (Proc.devRef .tc main_arg5) = _
  after_results_simp
  exact at2_main_arg5 m ρ c
theorem at4_main_arg5 : W4 m ρ c (Proc.devRef .tc main_arg5) = (m ((c.tc : Thread nD τ).loc main_arg5)) :=
  (W4_of_ne m ρ c main_arg5 (by decide)).trans (at3_main_arg5 m ρ c)
theorem at5_main_arg5 : W5 m ρ c (Proc.devRef .tc main_arg5) = (m ((c.tc : Thread nD τ).loc main_arg5)) := by
  show StableHlo.after hostOps2 (W4 m ρ c) (Proc.devRef .tc main_arg5) = _
  after_results_simp
  exact at4_main_arg5 m ρ c
theorem at6_main_arg5 : W6 m ρ c (Proc.devRef .tc main_arg5) = (m ((c.tc : Thread nD τ).loc main_arg5)) :=
  (W6_of_ne m ρ c main_arg5 (by decide)).trans (at5_main_arg5 m ρ c)
theorem at2_main_arg6 : W2 m ρ c (Proc.devRef .tc main_arg6) = (m ((c.tc : Thread nD τ).loc main_arg6)) :=
  (W2_of_ne m ρ c main_arg6 (by decide)).trans (at1_main_arg6 m ρ c)
theorem at3_main_arg6 : W3 m ρ c (Proc.devRef .tc main_arg6) = (m ((c.tc : Thread nD τ).loc main_arg6)) := by
  show StableHlo.after hostOps1 (W2 m ρ c) (Proc.devRef .tc main_arg6) = _
  after_results_simp
  exact at2_main_arg6 m ρ c
theorem at4_main_arg6 : W4 m ρ c (Proc.devRef .tc main_arg6) = (m ((c.tc : Thread nD τ).loc main_arg6)) :=
  (W4_of_ne m ρ c main_arg6 (by decide)).trans (at3_main_arg6 m ρ c)
theorem at5_main_arg6 : W5 m ρ c (Proc.devRef .tc main_arg6) = (m ((c.tc : Thread nD τ).loc main_arg6)) := by
  show StableHlo.after hostOps2 (W4 m ρ c) (Proc.devRef .tc main_arg6) = _
  after_results_simp
  exact at4_main_arg6 m ρ c
theorem at6_main_arg6 : W6 m ρ c (Proc.devRef .tc main_arg6) = (m ((c.tc : Thread nD τ).loc main_arg6)) :=
  (W6_of_ne m ρ c main_arg6 (by decide)).trans (at5_main_arg6 m ρ c)

end Cert.Sage

end
-- ==== Proof.KernelValue.lean ====
/-
  The kernel program's result buffer, read back through the segment boundaries.

  Between two regions the host operations compute the next layer's inputs from buffers that earlier stretches left
  and from the previous region's output array; a region changes only its own output array. Walking from the last
  boundary back to the launch memory, the result is the composition `kernelSpec` of the argument arrays, GIVEN each
  region's output array as the whole-array layer function of its entry contents (the four hypotheses `hR0 … hR3`).
-/
import proofs.«112709_j37056977830621_1_alg».proof.Proof.Gen.KernelIdeal.Frame
import proofs.«112709_j37056977830621_1_alg».proof.Proof.Spec
import proofs.«112709_j37056977830621_1_alg».proof.Proof.KVHost

set_option maxRecDepth 16384

noncomputable section

namespace Cert.Sage

open Idealize.ShloMosaic Idealize.ShloMosaic.TcCoe Idealize.SL.Sem Idealize.ShloMosaic.StableHlo
open Idealize.ShloMosaic.Pipeline (Dat Cfg Window)
open Cert.KernelIdeal Cert.KernelIdeal.Gen Cert.KernelIdeal.Facts₀

variable (m : (ℓ : Loc nD τ sig) → Buf (Elt Ideal) ℓ) (ρ : Dev nD → PrngReg) (c : Dev nD)

/-! ## The regions, one after the other -/

section Regions

variable
  (hR0 : ∀ (V : (c : Dev nD) → (b : Ref sig .tc) → Buf (Elt Ideal) ((c : Thread nD τ).loc b)) (c : Dev nD),
    (dat0 (F := Ideal) V c).arrAt 5 cfg0.N = layerG (V c main_v26) (V c main_arg0) (V c main_v28) (V c main_v30) (V c main_v32))
  (hR1 : ∀ (V : (c : Dev nD) → (b : Ref sig .tc) → Buf (Elt Ideal) ((c : Thread nD τ).loc b)) (c : Dev nD),
    (dat1 (F := Ideal) V c).arrAt 5 cfg1.N = layerG (V c main_v46) (V c main_v33) (V c main_v48) (V c main_v50) (V c main_v52))
  (hR2 : ∀ (V : (c : Dev nD) → (b : Ref sig .tc) → Buf (Elt Ideal) ((c : Thread nD τ).loc b)) (c : Dev nD),
    (dat2 (F := Ideal) V c).arrAt 5 cfg2.N = layerG (V c main_v66) (V c main_v53) (V c main_v68) (V c main_v70) (V c main_v72))
  (hR3 : ∀ (V : (c : Dev nD) → (b : Ref sig .tc) → Buf (Elt Ideal) ((c : Thread nD τ).loc b)) (c : Dev nD),
    (dat3 (F := Ideal) V c).arrAt 3 cfg3.N = outG (V c main_v73) (V c main_v77) (V c main_v80))

include hR0 in
/-- Region 0's output array: the nodes' rows after layer 0. -/
theorem out_region0 : W2 m ρ c (Proc.devRef .tc main_v33) = h1K (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  refine (W2_arr m ρ c 5).trans ((hR0 (V1 m ρ) c).trans ?_)
  show layerG (W1 m ρ c (Proc.devRef .tc main_v26)) (W1 m ρ c (Proc.devRef .tc main_arg0)) (W1 m ρ c (Proc.devRef .tc main_v28))
    (W1 m ρ c (Proc.devRef .tc main_v30)) (W1 m ρ c (Proc.devRef .tc main_v32)) = _
  rw [at1_main_v26, at1_main_arg0, at1_main_v28, at1_main_v30, at1_main_v32]
  rfl

include hR0 in
theorem at3_main_v33 : W3 m ρ c (Proc.devRef .tc main_v33) = h1K (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  show StableHlo.after hostOps1 (W2 m ρ c) (Proc.devRef .tc main_v33) = _
  after_results_simp
  exact out_region0 m ρ c hR0

include hR0 in
theorem at3_main_v46 : W3 m ρ c (Proc.devRef .tc main_v46) = aggK (m ((c.tc : Thread nD τ).loc main_arg1)) (h1K (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) := by
  show StableHlo.after hostOps1 (W2 m ρ c) (Proc.devRef .tc main_v46) = _
  after_results_simp
  rw [at2_main_v1, at2_main_v3, at2_main_v11, out_region0 m ρ c hR0]
  rfl

theorem at3_main_v48 : W3 m ρ c (Proc.devRef .tc main_v48) = wT1K (m ((c.tc : Thread nD τ).loc main_arg2)) := by
  show StableHlo.after hostOps1 (W2 m ρ c) (Proc.devRef .tc main_v48) = _
  after_results_simp
  rw [at2_main_v12]
  rfl

theorem at3_main_v50 : W3 m ρ c (Proc.devRef .tc main_v50) = wT1K (m ((c.tc : Thread nD τ).loc main_arg4)) := by
  show StableHlo.after hostOps1 (W2 m ρ c) (Proc.devRef .tc main_v50) = _
  after_results_simp
  rw [at2_main_v13]
  rfl

theorem at3_main_v52 : W3 m ρ c (Proc.devRef .tc main_v52) = b1K (m ((c.tc : Thread nD τ).loc main_arg3)) := by
  show StableHlo.after hostOps1 (W2 m ρ c) (Proc.devRef .tc main_v52) = _
  after_results_simp
  rw [at2_main_arg3]
  rfl

include hR0 hR1 in
/-- Region 1's output array: the nodes' rows after layer 1. -/
theorem out_region1 : W4 m ρ c (Proc.devRef .tc main_v53) = h2K (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  refine (W4_arr m ρ c 5).trans ((hR1 (V3 m ρ) c).trans ?_)
  show layerG (W3 m ρ c (Proc.devRef .tc main_v46)) (W3 m ρ c (Proc.devRef .tc main_v33)) (W3 m ρ c (Proc.devRef .tc main_v48))
    (W3 m ρ c (Proc.devRef .tc main_v50)) (W3 m ρ c (Proc.devRef .tc main_v52)) = _
  rw [at3_main_v46 m ρ c hR0, at3_main_v33 m ρ c hR0, at3_main_v48, at3_main_v50, at3_main_v52]
  rfl

include hR0 hR1 in
theorem at5_main_v53 : W5 m ρ c (Proc.devRef .tc main_v53) = h2K (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  show StableHlo.after hostOps2 (W4 m ρ c) (Proc.devRef .tc main_v53) = _
  after_results_simp
  exact out_region1 m ρ c hR0 hR1

include hR0 hR1 in
theorem at5_main_v66 : W5 m ρ c (Proc.devRef .tc main_v66) = aggK (m ((c.tc : Thread nD τ).loc main_arg1)) (h2K (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) := by
  show StableHlo.after hostOps2 (W4 m ρ c) (Proc.devRef .tc main_v66) = _
  after_results_simp
  rw [at4_main_v1, at4_main_v3, at4_main_v11, out_region1 m ρ c hR0 hR1]
  rfl

theorem at5_main_v68 : W5 m ρ c (Proc.devRef .tc main_v68) = wT2K (m ((c.tc : Thread nD τ).loc main_arg2)) := by
  show StableHlo.after hostOps2 (W4 m ρ c) (Proc.devRef .tc main_v68) = _
  after_results_simp
  rw [at4_main_v12]
  rfl

theorem at5_main_v70 : W5 m ρ c (Proc.devRef .tc main_v70) = wT2K (m ((c.tc : Thread nD τ).loc main_arg4)) := by
  show StableHlo.after hostOps2 (W4 m ρ c) (Proc.devRef .tc main_v70) = _
  after_results_simp
  rw [at4_main_v13]
  rfl

theorem at5_main_v72 : W5 m ρ c (Proc.devRef .tc main_v72) = b2K (m ((c.tc : Thread nD τ).loc main_arg3)) := by
  show StableHlo.after hostOps2 (W4 m ρ c) (Proc.devRef .tc main_v72) = _
  after_results_simp
  rw [at4_main_arg3]
  rfl

include hR0 hR1 hR2 in
/-- Region 2's output array: the nodes' rows after layer 2. -/
theorem out_region2 : W6 m ρ c (Proc.devRef .tc main_v73) = h3K (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  refine (W6_arr m ρ c 5).trans ((hR2 (V5 m ρ) c).trans ?_)
  show layerG (W5 m ρ c (Proc.devRef .tc main_v66)) (W5 m ρ c (Proc.devRef .tc main_v53)) (W5 m ρ c (Proc.devRef .tc main_v68))
    (W5 m ρ c (Proc.devRef .tc main_v70)) (W5 m ρ c (Proc.devRef .tc main_v72)) = _
  rw [at5_main_v66 m ρ c hR0 hR1, at5_main_v53 m ρ c hR0 hR1, at5_main_v68, at5_main_v70, at5_main_v72]
  rfl

include hR0 hR1 hR2 in
theorem at7_main_v73 : W7 m ρ c (Proc.devRef .tc main_v73) = h3K (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  show StableHlo.after hostOps3 (W6 m ρ c) (Proc.devRef .tc main_v73) = _
  after_results_simp
  exact out_region2 m ρ c hR0 hR1 hR2

theorem at7_main_v77 : W7 m ρ c (Proc.devRef .tc main_v77) = wpadK (m ((c.tc : Thread nD τ).loc main_arg5)) := by
  show StableHlo.after hostOps3 (W6 m ρ c) (Proc.devRef .tc main_v77) = _
  after_results_simp
  rw [at6_main_arg5]
  rfl

theorem at7_main_v80 : W7 m ρ c (Proc.devRef .tc main_v80) = bpadK (m ((c.tc : Thread nD τ).loc main_arg6)) := by
  show StableHlo.after hostOps3 (W6 m ρ c) (Proc.devRef .tc main_v80) = _
  after_results_simp
  rw [at6_main_arg6]
  rfl

include hR0 hR1 hR2 hR3 in
/-- Region 3's output array: the padded read-out of the last layer's rows. -/
theorem out_region3 : W8 m ρ c (Proc.devRef .tc main_v81) = outG (h3K (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) (wpadK (m ((c.tc : Thread nD τ).loc main_arg5))) (bpadK (m ((c.tc : Thread nD τ).loc main_arg6))) := by
  refine (W8_arr m ρ c 3).trans ((hR3 (V7 m ρ) c).trans ?_)
  show outG (W7 m ρ c (Proc.devRef .tc main_v73)) (W7 m ρ c (Proc.devRef .tc main_v77)) (W7 m ρ c (Proc.devRef .tc main_v80)) = _
  rw [at7_main_v73 m ρ c hR0 hR1 hR2, at7_main_v77, at7_main_v80]

include hR0 hR1 hR2 hR3 in
/-- The result buffer at the last boundary is the kernel's specification of the argument arrays. -/
theorem result_at_end : W9 m ρ c (Proc.devRef .tc main_v82)
    = kernelSpec (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  show StableHlo.after hostOps4 (W8 m ρ c) (Proc.devRef .tc main_v82) = _
  after_results_simp
  rw [out_region3 m ρ c hR0 hR1 hR2 hR3]
  rfl

end Regions

end Cert.Sage

end
-- ==== Proof.RefValue.lean ====
import proofs.«112709_j37056977830621_1_alg».proof.Proof.Gen.ReferenceIdeal.Run
import proofs.«112709_j37056977830621_1_alg».proof.Proof.Spec

/-!
# The reference's result is its specification

The reference run's composed term of the argument arrays is `refSpec` of them: the same operations, grouped by
layer.
-/

noncomputable section

namespace Cert.Sage

open Idealize.ShloMosaic Idealize.ShloMosaic.TcCoe Idealize.SL.Sem
open Cert.ReferenceIdeal

set_option maxRecDepth 16384 in
/-- The reference's result term, layer by layer. -/
theorem ref_result (m : (ℓ : Loc nD τ sig) → Buf (Elt Ideal) ℓ) (c : Dev nD) :
    Cert.ReferenceIdeal.Value.res_main_v100 (F := Ideal) m c
      = refSpec (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) := by
  unfold Cert.ReferenceIdeal.Value.res_main_v100
  rfl

end Cert.Sage

end
-- ==== Proof.LayerAlg.lean ====
import proofs.«112709_j37056977830621_1_alg».proof.Proof.Spec
import proofs.«112709_j37056977830621_1_alg».proof.Proof.Gen.ReferenceIdeal.Read
import Idealize.ShloMosaic.Lib.Pipeline.Value
import Idealize.ShloMosaic.Lib.ValueIdx
import Idealize.ShloMosaic.Lib.ValueLayout
import Idealize.ShloMosaic.PureOps.Ideal.Laws

/-!
# A layer: the kernel program's arrangement against the reference's

Entry by entry on the extended reals. The kernel program holds each weight with the contraction axis first and adds
the bias after both products, the reference holds it output axis first, transposes it, and adds the bias between the
two products: (A + B) + b = (A + b) + B in a commutative additive monoid, and both clamp at the same zero.
-/

noncomputable section

open scoped BigOperators

namespace Cert.Sage

open Idealize.ShloMosaic Idealize.ShloMosaic.ValueIdx

section R
open Cert.ReferenceIdeal Cert.ReferenceIdeal.Facts₀

/-- The reference's product of a [100000, 128] array with a [128, 128] one, at (p, q): the sum over the contracted
    coordinate. -/
theorem dot128_apply (l : FVec Ideal S100000x128 .f32) (r : FVec Ideal S128x128 .f32) (p : Fin 100000) (q : Fin 128) :
    Host.dotGeneral dot_S100000x128_S128x128_S100000x128_1_0_0_1_n_n none l r (ix2 p q)
      = ∑ k : Fin 128, l (ix2 p k) * r (ix2 k q) := by
  simp only [Host.dotGeneral]
  rw [Ideal.dotGeneral_apply, ← Equiv.sum_comp (ValueIdx.contrEquiv1 dot_S100000x128_S128x128_S100000x128_1_0_0_1_n_n 128 rfl rfl).symm]
  refine Finset.sum_congr rfl fun k _ => ?_
  have hk := ValueIdx.contrEquiv1_symm_val dot_S100000x128_S128x128_S100000x128_1_0_0_1_n_n 128 rfl rfl k
  have el : dot_S100000x128_S128x128_S100000x128_1_0_0_1_n_n.lhsIdx (ix2 p q) ((ValueIdx.contrEquiv1 dot_S100000x128_S128x128_S100000x128_1_0_0_1_n_n 128 rfl rfl).symm k) = ix2 p k := funext fun a => Fin.ext (by
    match a with
    | ⟨0, _⟩ => exact Cert.ReferenceIdeal.Read.lhs_main_v32_0 _ _
    | ⟨1, _⟩ => exact (Cert.ReferenceIdeal.Read.lhs_main_v32_1 _ _).trans hk)
  have er : dot_S100000x128_S128x128_S100000x128_1_0_0_1_n_n.rhsIdx (ix2 p q) ((ValueIdx.contrEquiv1 dot_S100000x128_S128x128_S100000x128_1_0_0_1_n_n 128 rfl rfl).symm k) = ix2 k q := funext fun a => Fin.ext (by
    match a with
    | ⟨0, _⟩ => exact (Cert.ReferenceIdeal.Read.rhs_main_v32_0 _ _).trans hk
    | ⟨1, _⟩ => exact Cert.ReferenceIdeal.Read.rhs_main_v32_1 _ _)
  rw [el, er]

/-- A transposed [128, 128] array at (k, q) is the array at (q, k). -/
theorem transpose128_apply (w : FVec Ideal S128x128 .f32) (k q : Fin 128) :
    transpose S128x128 [1, 0] w transposes_S128x128_S128x128_1_0 (ix2 k q) = w (ix2 q k) :=
  transpose_apply [1, 0] w transposes_S128x128_S128x128_1_0 (ix2 k q) (ix2 q k) (fun b => match b with
    | ⟨0, _⟩ => rfl
    | ⟨1, _⟩ => rfl)

/-- A row against a transposed [128, 128] array: the transposed array read at the swapped coordinates. -/
theorem sum_transpose128 (a : FVec Ideal S100000x128 .f32) (w : FVec Ideal S128x128 .f32) (p : Fin 100000) (q : Fin 128) :
    (∑ k : Fin 128, a (ix2 p k) * transpose S128x128 [1, 0] w transposes_S128x128_S128x128_1_0 (ix2 k q))
      = ∑ k : Fin 128, a (ix2 p k) * w (ix2 q k) :=
  Finset.sum_congr rfl fun k _ => by rw [transpose128_apply]

/-- The bias row repeated down the 100000 rows, at (p, q): the bias at q. -/
theorem biasRows_apply (b : FVec Ideal S128 .f32) (p : Fin 100000) (q : Fin 128) :
    broadcastInDim S100000x128 ![0, 1] bcast_S1x128_S100000x128_0_1 (broadcastInDim S1x128 ![1] bcast_S128_S1x128_1 b) (ix2 p q)
      = b (ix1 q) := by
  refine (broadcastInDim_apply _ bcast_S1x128_S100000x128_0_1 _ (ix2 p q) (ix2 (0 : Fin 1) q) (fun a => match a with
    | ⟨0, _⟩ => by show 0 = if (1 : Nat) = 1 then 0 else p.val; rw [if_pos rfl]
    | ⟨1, _⟩ => by show q.val = if (128 : Nat) = 1 then 0 else q.val; rw [if_neg (by decide)])).trans ?_
  exact broadcastInDim_apply _ bcast_S128_S1x128_1 b (ix2 (0 : Fin 1) q) (ix1 q) (fun a => match a with
    | ⟨0, _⟩ => by show q.val = if (128 : Nat) = 1 then 0 else q.val; rw [if_neg (by decide)])

/-- The reference's layer at (p, q). -/
theorem layerR_apply (a h : FVec Ideal S100000x128 .f32) (wl wr : FVec Ideal S128x128 .f32) (b : FVec Ideal S128 .f32)
    (p : Fin 100000) (q : Fin 128) :
    layerR a h wl wr b (ix2 p q)
      = max (((∑ k : Fin 128, a (ix2 p k) * wl (ix2 q k)) + b (ix1 q)) + (∑ k : Fin 128, h (ix2 p k) * wr (ix2 q k)))
          (Ideal.ofBits .f32 0x00000000#32) := by
  unfold layerR
  rw [maximumf_apply, addf_apply, addf_apply, dot128_apply, dot128_apply, biasRows_apply, sum_transpose128, sum_transpose128]
  rfl

/-- The layer law: with the weights transposed, the kernel program's arrangement is the reference's. -/
theorem layerG_transpose_eq_layerR (a h : FVec Ideal S100000x128 .f32) (wl wr : FVec Ideal S128x128 .f32) (b : FVec Ideal S128 .f32) :
    layerG a h (transpose S128x128 [1, 0] wl transposes_S128x128_S128x128_1_0)
        (transpose S128x128 [1, 0] wr transposes_S128x128_S128x128_1_0) b
      = layerR a h wl wr b := by
  funext i
  obtain ⟨p, q, rfl⟩ : ∃ (p : Fin 100000) (q : Fin 128), i = ix2 p q := ⟨i 0, i 1, eq_ix2 i⟩
  rw [layerR_apply]
  show layerAt a h _ _ b p q = _
  unfold layerAt
  rw [sum_transpose128, sum_transpose128, add_right_comm]

/-- Layer 0's weight as the reference cuts it out, at (q, k): entry (0, q, k) of the stack. -/
theorem w0R_apply (W : FVec Ideal S3x128x128 .f32) (q k : Fin 128) :
    w0R W (ix2 q k) = W (ix3 (0 : Fin 3) q k) := by
  unfold w0R
  refine (shapeCast_apply _ shapeCasts_S1x128x128_S128x128 (ix2 q k) (ix3 (0 : Fin 1) q k) ?_).trans ?_
  · rewrite [Shape.rowMajor_val_three, Shape.rowMajor_val_two]
    show (0 * 128 + q.val) * 128 + k.val = q.val * 128 + k.val
    omega
  · exact extractStridedSlice_apply ![0, 0, 0] W slices_S3x128x128_S1x128x128_0_0_0 (ix3 (0 : Fin 1) q k) (ix3 (0 : Fin 3) q k)
      (fun a => match a with
        | ⟨0, _⟩ => by show 0 = 0 + 0; rfl
        | ⟨1, _⟩ => by show q.val = 0 + q.val; omega
        | ⟨2, _⟩ => by show k.val = 0 + k.val; omega)

/-- Layer 1's weight as the reference cuts it out, at (q, k): entry (1, q, k) of the stack. -/
theorem w1R_apply (W : FVec Ideal S3x128x128 .f32) (q k : Fin 128) :
    w1R W (ix2 q k) = W (ix3 (1 : Fin 3) q k) := by
  unfold w1R
  refine (shapeCast_apply _ shapeCasts_S1x128x128_S128x128 (ix2 q k) (ix3 (0 : Fin 1) q k) ?_).trans ?_
  · rewrite [Shape.rowMajor_val_three, Shape.rowMajor_val_two]
    show (0 * 128 + q.val) * 128 + k.val = q.val * 128 + k.val
    omega
  · exact extractStridedSlice_apply ![1, 0, 0] W slices_S3x128x128_S1x128x128_1_0_0 (ix3 (0 : Fin 1) q k) (ix3 (1 : Fin 3) q k)
      (fun a => match a with
        | ⟨0, _⟩ => by show 1 = 1 + 0; rfl
        | ⟨1, _⟩ => by show q.val = 0 + q.val; omega
        | ⟨2, _⟩ => by show k.val = 0 + k.val; omega)

/-- Layer 2's weight as the reference cuts it out, at (q, k): entry (2, q, k) of the stack. -/
theorem w2R_apply (W : FVec Ideal S3x128x128 .f32) (q k : Fin 128) :
    w2R W (ix2 q k) = W (ix3 (2 : Fin 3) q k) := by
  unfold w2R
  refine (shapeCast_apply _ shapeCasts_S1x128x128_S128x128 (ix2 q k) (ix3 (0 : Fin 1) q k) ?_).trans ?_
  · rewrite [Shape.rowMajor_val_three, Shape.rowMajor_val_two]
    show (0 * 128 + q.val) * 128 + k.val = q.val * 128 + k.val
    omega
  · exact extractStridedSlice_apply ![2, 0, 0] W slices_S3x128x128_S1x128x128_2_0_0 (ix3 (0 : Fin 1) q k) (ix3 (2 : Fin 3) q k)
      (fun a => match a with
        | ⟨0, _⟩ => by show 2 = 2 + 0; rfl
        | ⟨1, _⟩ => by show q.val = 0 + q.val; omega
        | ⟨2, _⟩ => by show k.val = 0 + k.val; omega)

/-- Layer 0's weight as the kernel program lays it out (the stack's last two axes swapped, then cut out), at (k, q):
    entry (0, q, k) of the stack. -/
theorem wT0K_apply (W : FVec Ideal Cert.KernelIdeal.S3x128x128 .f32) (k q : Fin 128) :
    wT0K W (ix2 k q) = W (ix3 (0 : Fin 3) q k) := by
  unfold wT0K
  refine (shapeCast_apply _ Cert.KernelIdeal.Facts₀.shapeCasts_S1x128x128_S128x128 (ix2 k q) (ix3 (0 : Fin 1) k q) ?_).trans ?_
  · rewrite [Shape.rowMajor_val_three, Shape.rowMajor_val_two]
    show (0 * 128 + k.val) * 128 + q.val = k.val * 128 + q.val
    omega
  refine (extractStridedSlice_apply ![0, 0, 0] _ Cert.KernelIdeal.Facts₀.slices_S3x128x128_S1x128x128_0_0_0
      (ix3 (0 : Fin 1) k q) (ix3 (0 : Fin 3) k q)
      (fun a => match a with
        | ⟨0, _⟩ => by show 0 = 0 + 0; rfl
        | ⟨1, _⟩ => by show k.val = 0 + k.val; omega
        | ⟨2, _⟩ => by show q.val = 0 + q.val; omega)).trans ?_
  exact transpose_apply [0, 2, 1] W Cert.KernelIdeal.Facts₀.transposes_S3x128x128_S3x128x128_0_2_1 (ix3 (0 : Fin 3) k q) (ix3 (0 : Fin 3) q k)
    (fun b => match b with
      | ⟨0, _⟩ => rfl
      | ⟨1, _⟩ => rfl
      | ⟨2, _⟩ => rfl)

/-- The kernel program's layout of layer 0's weight is the transpose of the reference's. -/
theorem wT0K_eq (W : FVec Ideal Cert.KernelIdeal.S3x128x128 .f32) :
    wT0K W = transpose S128x128 [1, 0] (w0R W) transposes_S128x128_S128x128_1_0 := by
  funext i
  obtain ⟨k, q, rfl⟩ : ∃ (k q : Fin 128), i = ix2 k q := ⟨i 0, i 1, eq_ix2 i⟩
  rw [wT0K_apply, transpose128_apply, w0R_apply]

/-- The two programs cut layer 0's bias row out the same way. -/
theorem b0K_eq (bl : FVec Ideal Cert.KernelIdeal.S3x128 .f32) : b0K bl = b0R bl := rfl

/-- Layer 0: the kernel program's arrangement and the reference's agree. -/
theorem layer0_eq (a h : FVec Ideal Cert.KernelIdeal.S100000x128 .f32) (Wl Wr : FVec Ideal Cert.KernelIdeal.S3x128x128 .f32)
    (bl : FVec Ideal Cert.KernelIdeal.S3x128 .f32) :
    layerG a h (wT0K Wl) (wT0K Wr) (b0K bl) = layerR a h (w0R Wl) (w0R Wr) (b0R bl) := by
  rw [wT0K_eq Wl, wT0K_eq Wr, b0K_eq bl]
  exact layerG_transpose_eq_layerR a h (w0R Wl) (w0R Wr) (b0R bl)

/-- Layer 1's weight as the kernel program lays it out (the stack's last two axes swapped, then cut out), at (k, q):
    entry (1, q, k) of the stack. -/
theorem wT1K_apply (W : FVec Ideal Cert.KernelIdeal.S3x128x128 .f32) (k q : Fin 128) :
    wT1K W (ix2 k q) = W (ix3 (1 : Fin 3) q k) := by
  unfold wT1K
  refine (shapeCast_apply _ Cert.KernelIdeal.Facts₀.shapeCasts_S1x128x128_S128x128 (ix2 k q) (ix3 (0 : Fin 1) k q) ?_).trans ?_
  · rewrite [Shape.rowMajor_val_three, Shape.rowMajor_val_two]
    show (0 * 128 + k.val) * 128 + q.val = k.val * 128 + q.val
    omega
  refine (extractStridedSlice_apply ![1, 0, 0] _ Cert.KernelIdeal.Facts₀.slices_S3x128x128_S1x128x128_1_0_0
      (ix3 (0 : Fin 1) k q) (ix3 (1 : Fin 3) k q)
      (fun a => match a with
        | ⟨0, _⟩ => by show 1 = 1 + 0; rfl
        | ⟨1, _⟩ => by show k.val = 0 + k.val; omega
        | ⟨2, _⟩ => by show q.val = 0 + q.val; omega)).trans ?_
  exact transpose_apply [0, 2, 1] W Cert.KernelIdeal.Facts₀.transposes_S3x128x128_S3x128x128_0_2_1 (ix3 (1 : Fin 3) k q) (ix3 (1 : Fin 3) q k)
    (fun b => match b with
      | ⟨0, _⟩ => rfl
      | ⟨1, _⟩ => rfl
      | ⟨2, _⟩ => rfl)

/-- The kernel program's layout of layer 1's weight is the transpose of the reference's. -/
theorem wT1K_eq (W : FVec Ideal Cert.KernelIdeal.S3x128x128 .f32) :
    wT1K W = transpose S128x128 [1, 0] (w1R W) transposes_S128x128_S128x128_1_0 := by
  funext i
  obtain ⟨k, q, rfl⟩ : ∃ (k q : Fin 128), i = ix2 k q := ⟨i 0, i 1, eq_ix2 i⟩
  rw [wT1K_apply, transpose128_apply, w1R_apply]

/-- The two programs cut layer 1's bias row out the same way. -/
theorem b1K_eq (bl : FVec Ideal Cert.KernelIdeal.S3x128 .f32) : b1K bl = b1R bl := rfl

/-- Layer 1: the kernel program's arrangement and the reference's agree. -/
theorem layer1_eq (a h : FVec Ideal Cert.KernelIdeal.S100000x128 .f32) (Wl Wr : FVec Ideal Cert.KernelIdeal.S3x128x128 .f32)
    (bl : FVec Ideal Cert.KernelIdeal.S3x128 .f32) :
    layerG a h (wT1K Wl) (wT1K Wr) (b1K bl) = layerR a h (w1R Wl) (w1R Wr) (b1R bl) := by
  rw [wT1K_eq Wl, wT1K_eq Wr, b1K_eq bl]
  exact layerG_transpose_eq_layerR a h (w1R Wl) (w1R Wr) (b1R bl)

/-- Layer 2's weight as the kernel program lays it out (the stack's last two axes swapped, then cut out), at (k, q):
    entry (2, q, k) of the stack. -/
theorem wT2K_apply (W : FVec Ideal Cert.KernelIdeal.S3x128x128 .f32) (k q : Fin 128) :
    wT2K W (ix2 k q) = W (ix3 (2 : Fin 3) q k) := by
  unfold wT2K
  refine (shapeCast_apply _ Cert.KernelIdeal.Facts₀.shapeCasts_S1x128x128_S128x128 (ix2 k q) (ix3 (0 : Fin 1) k q) ?_).trans ?_
  · rewrite [Shape.rowMajor_val_three, Shape.rowMajor_val_two]
    show (0 * 128 + k.val) * 128 + q.val = k.val * 128 + q.val
    omega
  refine (extractStridedSlice_apply ![2, 0, 0] _ Cert.KernelIdeal.Facts₀.slices_S3x128x128_S1x128x128_2_0_0
      (ix3 (0 : Fin 1) k q) (ix3 (2 : Fin 3) k q)
      (fun a => match a with
        | ⟨0, _⟩ => by show 2 = 2 + 0; rfl
        | ⟨1, _⟩ => by show k.val = 0 + k.val; omega
        | ⟨2, _⟩ => by show q.val = 0 + q.val; omega)).trans ?_
  exact transpose_apply [0, 2, 1] W Cert.KernelIdeal.Facts₀.transposes_S3x128x128_S3x128x128_0_2_1 (ix3 (2 : Fin 3) k q) (ix3 (2 : Fin 3) q k)
    (fun b => match b with
      | ⟨0, _⟩ => rfl
      | ⟨1, _⟩ => rfl
      | ⟨2, _⟩ => rfl)

/-- The kernel program's layout of layer 2's weight is the transpose of the reference's. -/
theorem wT2K_eq (W : FVec Ideal Cert.KernelIdeal.S3x128x128 .f32) :
    wT2K W = transpose S128x128 [1, 0] (w2R W) transposes_S128x128_S128x128_1_0 := by
  funext i
  obtain ⟨k, q, rfl⟩ : ∃ (k q : Fin 128), i = ix2 k q := ⟨i 0, i 1, eq_ix2 i⟩
  rw [wT2K_apply, transpose128_apply, w2R_apply]

/-- The two programs cut layer 2's bias row out the same way. -/
theorem b2K_eq (bl : FVec Ideal Cert.KernelIdeal.S3x128 .f32) : b2K bl = b2R bl := rfl

/-- Layer 2: the kernel program's arrangement and the reference's agree. -/
theorem layer2_eq (a h : FVec Ideal Cert.KernelIdeal.S100000x128 .f32) (Wl Wr : FVec Ideal Cert.KernelIdeal.S3x128x128 .f32)
    (bl : FVec Ideal Cert.KernelIdeal.S3x128 .f32) :
    layerG a h (wT2K Wl) (wT2K Wr) (b2K bl) = layerR a h (w2R Wl) (w2R Wr) (b2R bl) := by
  rw [wT2K_eq Wl, wT2K_eq Wr, b2K_eq bl]
  exact layerG_transpose_eq_layerR a h (w2R Wl) (w2R Wr) (b2R bl)

end R

end Cert.Sage

end
-- ==== Proof.LibScatterTake.lean ====
import Idealize.ShloMosaic.PureOps.Ideal
import Idealize.ShloMosaic.Lib.ValueIdx

/-!
# A scatter whose combiner takes the update, read at an index

`Host.scatter` folds the updates, in row-major order of the update array, into the operand: update position j lands
at the operand index `d.resultIdx? j idx`, when that is inside the operand, and the combiner is applied there.
With the combiner "take the update" (what `x.at[…].set(u)` lowers to) the result at an index i where some update
lands, all the updates landing at i carrying one value, is that value; where no update lands the operand shows
through. Generic in the shapes, the dimension numbers, the index width and the element type.
-/

noncomputable section

namespace Cert.ScatterTake

open Idealize.ShloMosaic

section ScatterRead
variable {α : Type} {s si u : Shape} {w : Nat}

/-- A scatter's fold over a list of update positions. -/
def scatterOn (d : ScatterDims s si u) (f : α → α → α) (idx : IVec si w) (upd : u.Idx → α)
    (l : List (Fin u.numel)) (x : s.Idx → α) : s.Idx → α :=
  l.foldl (fun r n =>
      match d.resultIdx? (u.rowMajor.symm n) idx with
      | some i => fun i' => if i' = i then f (r i) (upd (u.rowMajor.symm n)) else r i'
      | none => r)
    x

theorem scatter_eq_scatterOn (d : ScatterDims s si u) (f : α → α → α) (x : s.Idx → α) (idx : IVec si w) (upd : u.Idx → α) :
    Host.scatter d f x idx upd = scatterOn d f idx upd (List.finRange u.numel) x := rfl

/-- One step of the fold. -/
def scatterStep (f : α → α → α) (R : Option s.Idx) (b : α) (x : s.Idx → α) : s.Idx → α :=
  match R with
  | some i => fun i' => if i' = i then f (x i) b else x i'
  | none => x

theorem scatterOn_cons (d : ScatterDims s si u) (f : α → α → α) (idx : IVec si w) (upd : u.Idx → α)
    (n : Fin u.numel) (l : List (Fin u.numel)) (x : s.Idx → α) :
    scatterOn d f idx upd (n :: l) x
      = scatterOn d f idx upd l (scatterStep f (d.resultIdx? (u.rowMajor.symm n) idx) (upd (u.rowMajor.symm n)) x) := rfl

theorem scatterStep_apply_of_ne (f : α → α → α) (R : Option s.Idx) (b : α) (x : s.Idx → α) (i : s.Idx) (h : R ≠ some i) :
    scatterStep f R b x i = x i := by
  cases R with
  | none => rfl
  | some j => exact if_neg (fun e => h (congrArg some e.symm))

theorem scatterStep_take_apply (R : Option s.Idx) (b : α) (x : s.Idx → α) (i : s.Idx) (h : R = some i) :
    scatterStep (fun _ b => b) R b x i = b := by
  subst h
  exact if_pos rfl

/-- Where no update lands the operand shows through. -/
theorem scatterOn_apply_of_miss (d : ScatterDims s si u) (f : α → α → α) (idx : IVec si w) (upd : u.Idx → α)
    (i : s.Idx) (l : List (Fin u.numel)) (hmiss : ∀ n ∈ l, d.resultIdx? (u.rowMajor.symm n) idx ≠ some i) (x : s.Idx → α) :
    scatterOn d f idx upd l x i = x i := by
  induction l generalizing x with
  | nil => rfl
  | cons n l ih =>
    rw [scatterOn_cons, ih (fun n' hn' => hmiss n' (List.mem_cons_of_mem _ hn'))]
    exact scatterStep_apply_of_ne f _ _ x i (hmiss n List.mem_cons_self)

/-- Where updates land, all of them with the same value, a take-the-update scatter holds that value. -/
theorem scatterOn_take_apply_of_hit (d : ScatterDims s si u) (idx : IVec si w) (upd : u.Idx → α)
    (i : s.Idx) (c : α) (hval : ∀ j, d.resultIdx? j idx = some i → upd j = c) (l : List (Fin u.numel))
    (hhit : ∃ n ∈ l, d.resultIdx? (u.rowMajor.symm n) idx = some i) (x : s.Idx → α) :
    scatterOn d (fun _ b => b) idx upd l x i = c := by
  classical
  induction l generalizing x with
  | nil => obtain ⟨n, hn, _⟩ := hhit; cases hn
  | cons n l ih =>
    rw [scatterOn_cons]
    by_cases hl : ∃ n' ∈ l, d.resultIdx? (u.rowMajor.symm n') idx = some i
    · exact ih hl _
    · have hmiss : ∀ n' ∈ l, d.resultIdx? (u.rowMajor.symm n') idx ≠ some i := fun n' hn' h => hl ⟨n', hn', h⟩
      rw [scatterOn_apply_of_miss d _ idx upd i l hmiss]
      obtain ⟨n', hn', hn'i⟩ := hhit
      have hnn : n' = n := by
        rcases List.mem_cons.1 hn' with h | h
        · exact h
        · exact absurd hn'i (hmiss n' h)
      subst hnn
      rw [scatterStep_take_apply _ _ _ i hn'i]
      exact hval _ hn'i

/-- A take-the-update scatter read where an update lands. -/
theorem scatter_take_apply_of_hit (d : ScatterDims s si u) (x : s.Idx → α) (idx : IVec si w) (upd : u.Idx → α)
    (i : s.Idx) (j : u.Idx) (hj : d.resultIdx? j idx = some i) (hval : ∀ j', d.resultIdx? j' idx = some i → upd j' = upd j) :
    Host.scatter d (fun _ b => b) x idx upd i = upd j := by
  rw [scatter_eq_scatterOn]
  exact scatterOn_take_apply_of_hit d idx upd i _ hval _
    ⟨u.rowMajor j, List.mem_finRange _, by rw [Equiv.symm_apply_apply]; exact hj⟩ x

end ScatterRead

end Cert.ScatterTake

end
-- ==== Proof.OutAlg.lean ====
import proofs.«112709_j37056977830621_1_alg».proof.Proof.Spec
import proofs.«112709_j37056977830621_1_alg».proof.Proof.LibScatterTake
import proofs.«112709_j37056977830621_1_alg».proof.Proof.Gen.ReferenceIdeal.Read
import Idealize.ShloMosaic.Lib.Pipeline.Value
import Idealize.ShloMosaic.Lib.ValueIdx
import Idealize.ShloMosaic.Lib.ValueLayout
import Idealize.ShloMosaic.PureOps.Ideal.Laws

/-!
# The read-out: the kernel program's padded arrangement against the reference's

The kernel program writes the transposed 64 × 128 weight into the left 64 columns of a zero 128 × 128 array and the
bias into the left 64 entries of a zero vector of 128, multiplies, and keeps the left 64 columns of the result; those
columns read only the written part, where the padded operands are the reference's own.
-/

noncomputable section

open scoped BigOperators

namespace Cert.Sage

open Idealize.ShloMosaic Idealize.ShloMosaic.ValueIdx Cert.ScatterTake

section K
open Cert.KernelIdeal Cert.KernelIdeal.Facts₀

/-- The scatters' one start index: zero. -/
abbrev startZero : IVec S1 32 := broadcastInDim S1 ![] bcast_S_S1 (constantI S_ 32 0#32)

/-- The weight's window starts at (0, 0). -/
theorem wpad_start (j : S128x64.Idx) (a : Fin 2) : scatter_S128x128_S1_S128x64_01_n_1_0.start j startZero a = 0 := by
  unfold ScatterDims.start
  split
  · rfl
  · rfl

theorem wpad_window0 (j : S128x64.Idx) : scatter_S128x128_S1_S128x64_01_n_1_0.window j 0 = (j 0).val := rfl
theorem wpad_window1 (j : S128x64.Idx) : scatter_S128x128_S1_S128x64_01_n_1_0.window j 1 = (j 1).val := rfl

/-- Update entry (k, q) of the weight lands at (k, q). -/
theorem wpad_resultIdx (k : Fin 128) (q : Fin 64) :
    scatter_S128x128_S1_S128x64_01_n_1_0.resultIdx? (ix2 k q) startZero = some (ix2 k ⟨q.val, by omega⟩) := by
  unfold ScatterDims.resultIdx?
  rw [dif_pos]
  · congr 1
    funext a
    refine Fin.ext ?_
    match a with
    | ⟨0, _⟩ =>
      show (scatter_S128x128_S1_S128x64_01_n_1_0.start (ix2 k q) startZero 0 + scatter_S128x128_S1_S128x64_01_n_1_0.window (ix2 k q) 0).toNat = k.val
      rw [wpad_start, wpad_window0]; simp
    | ⟨1, _⟩ =>
      show (scatter_S128x128_S1_S128x64_01_n_1_0.start (ix2 k q) startZero 1 + scatter_S128x128_S1_S128x64_01_n_1_0.window (ix2 k q) 1).toNat = q.val
      rw [wpad_start, wpad_window1]; simp
  · intro a
    rw [wpad_start]
    match a with
    | ⟨0, _⟩ =>
      rw [show scatter_S128x128_S1_S128x64_01_n_1_0.window (ix2 k q) ⟨0, by decide⟩ = k.val from rfl]
      show (0 : Int) ≤ 0 + (k.val : Int) ∧ 0 + (k.val : Int) < 128
      omega
    | ⟨1, _⟩ =>
      rw [show scatter_S128x128_S1_S128x64_01_n_1_0.window (ix2 k q) ⟨1, by decide⟩ = q.val from rfl]
      show (0 : Int) ≤ 0 + (q.val : Int) ∧ 0 + (q.val : Int) < 128
      omega

/-- The padded weight at (k, q), q < 64: the read-out weight at (q, k). -/
theorem wpadK_apply (Wout : FVec Ideal S64x128 .f32) (k : Fin 128) (q : Fin 64) (hq : q.val < 128) :
    wpadK Wout (ix2 k ⟨q.val, hq⟩) = Wout (ix2 q k) := by
  unfold wpadK
  refine (scatter_take_apply_of_hit scatter_S128x128_S1_S128x64_01_n_1_0 _ startZero _ (ix2 k ⟨q.val, hq⟩) (ix2 k q)
    (wpad_resultIdx k q) ?_).trans ?_
  · intro j' hj'
    obtain ⟨k', q', rfl⟩ : ∃ (k' : Fin 128) (q' : Fin 64), j' = ix2 k' q' := ⟨j' 0, j' 1, eq_ix2 j'⟩
    rw [wpad_resultIdx] at hj'
    have e := Option.some.inj hj'
    have e0 : k' = k := congrFun e 0
    have e1 : (⟨q'.val, by omega⟩ : Fin 128) = ⟨q.val, hq⟩ := congrFun e 1
    rw [e0, Fin.ext (Fin.mk.inj e1)]
  · exact transpose_apply [1, 0] Wout transposes_S64x128_S128x64_1_0 (ix2 k q) (ix2 q k) (fun b => match b with
      | ⟨0, _⟩ => rfl
      | ⟨1, _⟩ => rfl)

/-- The bias's window starts at 0. -/
theorem bpad_start (j : S64.Idx) (a : Fin 1) : scatter_S128_S1_S64_0_n_0_0.start j startZero a = 0 := by
  unfold ScatterDims.start
  split
  · rfl
  · rfl

theorem bpad_window0 (j : S64.Idx) : scatter_S128_S1_S64_0_n_0_0.window j 0 = (j 0).val := rfl

/-- Update entry q of the bias lands at q. -/
theorem bpad_resultIdx (q : Fin 64) :
    scatter_S128_S1_S64_0_n_0_0.resultIdx? (ix1 q) startZero = some (ix1 ⟨q.val, by omega⟩) := by
  unfold ScatterDims.resultIdx?
  rw [dif_pos]
  · congr 1
    funext a
    refine Fin.ext ?_
    match a with
    | ⟨0, _⟩ =>
      show (scatter_S128_S1_S64_0_n_0_0.start (ix1 q) startZero 0 + scatter_S128_S1_S64_0_n_0_0.window (ix1 q) 0).toNat = q.val
      rw [bpad_start, bpad_window0]; simp
  · intro a
    rw [bpad_start]
    match a with
    | ⟨0, _⟩ =>
      rw [show scatter_S128_S1_S64_0_n_0_0.window (ix1 q) ⟨0, by decide⟩ = q.val from rfl]
      show (0 : Int) ≤ 0 + (q.val : Int) ∧ 0 + (q.val : Int) < 128
      omega

/-- The padded bias at q < 64: the read-out bias at q. -/
theorem bpadK_apply (bout : FVec Ideal S64 .f32) (q : Fin 64) (hq : q.val < 128) :
    bpadK bout (ix1 ⟨q.val, hq⟩) = bout (ix1 q) := by
  unfold bpadK
  refine scatter_take_apply_of_hit scatter_S128_S1_S64_0_n_0_0 _ startZero bout (ix1 ⟨q.val, hq⟩) (ix1 q)
    (bpad_resultIdx q) ?_
  intro j' hj'
  obtain ⟨q', rfl⟩ : ∃ (q' : Fin 64), j' = ix1 q' := ⟨j' 0, eq_ix1 j'⟩
  rw [bpad_resultIdx] at hj'
  have e := Option.some.inj hj'
  have e1 : (⟨q'.val, by omega⟩ : Fin 128) = ⟨q.val, hq⟩ := congrFun e 0
  rw [Fin.ext (Fin.mk.inj e1)]

end K

section R
open Cert.ReferenceIdeal Cert.ReferenceIdeal.Facts₀

/-- The reference's product of a [100000, 128] array with a [128, 64] one, at (p, q): the sum over the contracted
    coordinate. -/
theorem dot64_apply (l : FVec Ideal S100000x128 .f32) (r : FVec Ideal S128x64 .f32) (p : Fin 100000) (q : Fin 64) :
    Host.dotGeneral dot_S100000x128_S128x64_S100000x64_1_0_0_1_n_n none l r (ix2 p q)
      = ∑ k : Fin 128, l (ix2 p k) * r (ix2 k q) := by
  simp only [Host.dotGeneral]
  rw [Ideal.dotGeneral_apply, ← Equiv.sum_comp (ValueIdx.contrEquiv1 dot_S100000x128_S128x64_S100000x64_1_0_0_1_n_n 128 rfl rfl).symm]
  refine Finset.sum_congr rfl fun k _ => ?_
  have hk := ValueIdx.contrEquiv1_symm_val dot_S100000x128_S128x64_S100000x64_1_0_0_1_n_n 128 rfl rfl k
  have el : dot_S100000x128_S128x64_S100000x64_1_0_0_1_n_n.lhsIdx (ix2 p q) ((ValueIdx.contrEquiv1 dot_S100000x128_S128x64_S100000x64_1_0_0_1_n_n 128 rfl rfl).symm k) = ix2 p k := funext fun a => Fin.ext (by
    match a with
    | ⟨0, _⟩ => exact Cert.ReferenceIdeal.Read.lhs_main_v97_0 _ _
    | ⟨1, _⟩ => exact (Cert.ReferenceIdeal.Read.lhs_main_v97_1 _ _).trans hk)
  have er : dot_S100000x128_S128x64_S100000x64_1_0_0_1_n_n.rhsIdx (ix2 p q) ((ValueIdx.contrEquiv1 dot_S100000x128_S128x64_S100000x64_1_0_0_1_n_n 128 rfl rfl).symm k) = ix2 k q := funext fun a => Fin.ext (by
    match a with
    | ⟨0, _⟩ => exact (Cert.ReferenceIdeal.Read.rhs_main_v97_0 _ _).trans hk
    | ⟨1, _⟩ => exact Cert.ReferenceIdeal.Read.rhs_main_v97_1 _ _)
  rw [el, er]

/-- The transposed read-out weight at (k, q): the weight at (q, k). -/
theorem transpose64_apply (w : FVec Ideal S64x128 .f32) (k : Fin 128) (q : Fin 64) :
    transpose S128x64 [1, 0] w transposes_S64x128_S128x64_1_0 (ix2 k q) = w (ix2 q k) :=
  transpose_apply [1, 0] w transposes_S64x128_S128x64_1_0 (ix2 k q) (ix2 q k) (fun b => match b with
    | ⟨0, _⟩ => rfl
    | ⟨1, _⟩ => rfl)

/-- A row against the transposed read-out weight: the weight read at the swapped coordinates. -/
theorem sum_transpose64 (h : FVec Ideal S100000x128 .f32) (w : FVec Ideal S64x128 .f32) (p : Fin 100000) (q : Fin 64) :
    (∑ k : Fin 128, h (ix2 p k) * transpose S128x64 [1, 0] w transposes_S64x128_S128x64_1_0 (ix2 k q))
      = ∑ k : Fin 128, h (ix2 p k) * w (ix2 q k) :=
  Finset.sum_congr rfl fun k _ => by rw [transpose64_apply]

/-- The read-out bias repeated down the 100000 rows, at (p, q): the bias at q. -/
theorem biasRows64_apply (b : FVec Ideal S64 .f32) (p : Fin 100000) (q : Fin 64) :
    broadcastInDim S100000x64 ![0, 1] bcast_S1x64_S100000x64_0_1 (broadcastInDim S1x64 ![1] bcast_S64_S1x64_1 b) (ix2 p q)
      = b (ix1 q) := by
  refine (broadcastInDim_apply _ bcast_S1x64_S100000x64_0_1 _ (ix2 p q) (ix2 (0 : Fin 1) q) (fun a => match a with
    | ⟨0, _⟩ => by show 0 = if (1 : Nat) = 1 then 0 else p.val; rw [if_pos rfl]
    | ⟨1, _⟩ => by show q.val = if (64 : Nat) = 1 then 0 else q.val; rw [if_neg (by decide)])).trans ?_
  exact broadcastInDim_apply _ bcast_S64_S1x64_1 b (ix2 (0 : Fin 1) q) (ix1 q) (fun a => match a with
    | ⟨0, _⟩ => by show q.val = if (64 : Nat) = 1 then 0 else q.val; rw [if_neg (by decide)])

/-- The reference's read-out at (p, q). -/
theorem outR_apply (h : FVec Ideal S100000x128 .f32) (Wout : FVec Ideal S64x128 .f32) (bout : FVec Ideal S64 .f32)
    (p : Fin 100000) (q : Fin 64) :
    outR h Wout bout (ix2 p q) = (∑ k : Fin 128, h (ix2 p k) * Wout (ix2 q k)) + bout (ix1 q) := by
  unfold outR
  rw [addf_apply, dot64_apply, biasRows64_apply, sum_transpose64]

end R

/-- The read-out: the left 64 columns of the kernel program's padded product are the reference's product. -/
theorem out_eq (h : FVec Ideal Cert.KernelIdeal.S100000x128 .f32) (Wout : FVec Ideal Cert.KernelIdeal.S64x128 .f32)
    (bout : FVec Ideal Cert.KernelIdeal.S64 .f32) :
    extractStridedSlice Cert.KernelIdeal.S100000x64 ![0, 0] (outG h (wpadK Wout) (bpadK bout))
        Cert.KernelIdeal.Facts₀.slices_S100000x128_S100000x64_0_0
      = outR h Wout bout := by
  funext i
  obtain ⟨p, q, rfl⟩ : ∃ (p : Fin 100000) (q : Fin 64), i = ix2 p q := ⟨i 0, i 1, eq_ix2 i⟩
  have hq : q.val < 128 := by omega
  rw [outR_apply]
  refine (extractStridedSlice_apply ![0, 0] _ Cert.KernelIdeal.Facts₀.slices_S100000x128_S100000x64_0_0 (ix2 p q)
    (ix2 p ⟨q.val, hq⟩) (fun a => match a with
      | ⟨0, _⟩ => by show p.val = 0 + p.val; omega
      | ⟨1, _⟩ => by show q.val = 0 + q.val; omega)).trans ?_
  show outAt h (wpadK Wout) (bpadK bout) p ⟨q.val, hq⟩ = _
  unfold outAt
  rw [bpadK_apply bout q hq]
  exact congrArg (· + bout (ix1 q)) (Finset.sum_congr rfl fun k _ => by rw [wpadK_apply Wout k q hq])

end Cert.Sage

end
-- ==== Proof.SpecEq.lean ====
import proofs.«112709_j37056977830621_1_alg».proof.Proof.LayerAlg
import proofs.«112709_j37056977830621_1_alg».proof.Proof.OutAlg

/-!
# The two programs' results agree

Layer by layer: the neighbour mean is spelt identically, each layer's two arrangements agree (LayerAlg), and the
left 64 columns of the padded read-out are the reference's read-out (OutAlg).
-/

noncomputable section

namespace Cert.Sage

open Idealize.ShloMosaic

section
variable (x : FVec Ideal Cert.KernelIdeal.S100000x128 .f32) (ei : IVec Cert.KernelIdeal.S2x1600000 32)
  (Wl : FVec Ideal Cert.KernelIdeal.S3x128x128 .f32) (bl : FVec Ideal Cert.KernelIdeal.S3x128 .f32)
  (Wr : FVec Ideal Cert.KernelIdeal.S3x128x128 .f32)

/-- The rows after layer 0 agree. -/
theorem h1K_eq_h1R : h1K x ei Wl bl Wr = h1R x ei Wl bl Wr := by
  unfold h1K h1R
  rw [← aggK_eq_aggR]
  exact layer0_eq _ _ _ _ _

/-- The rows after layer 1 agree. -/
theorem h2K_eq_h2R : h2K x ei Wl bl Wr = h2R x ei Wl bl Wr := by
  unfold h2K h2R
  rw [← h1K_eq_h1R, ← aggK_eq_aggR]
  exact layer1_eq _ _ _ _ _

/-- The rows after layer 2 agree. -/
theorem h3K_eq_h3R : h3K x ei Wl bl Wr = h3R x ei Wl bl Wr := by
  unfold h3K h3R
  rw [← h2K_eq_h2R, ← aggK_eq_aggR]
  exact layer2_eq _ _ _ _ _

end

/-- The kernel program's result is the reference's. -/
theorem kernelSpec_eq_refSpec (x : FVec Ideal Cert.KernelIdeal.S100000x128 .f32) (ei : IVec Cert.KernelIdeal.S2x1600000 32)
    (Wl : FVec Ideal Cert.KernelIdeal.S3x128x128 .f32) (bl : FVec Ideal Cert.KernelIdeal.S3x128 .f32)
    (Wr : FVec Ideal Cert.KernelIdeal.S3x128x128 .f32) (Wout : FVec Ideal Cert.KernelIdeal.S64x128 .f32)
    (bout : FVec Ideal Cert.KernelIdeal.S64 .f32) :
    kernelSpec x ei Wl bl Wr Wout bout = refSpec x ei Wl bl Wr Wout bout := by
  unfold kernelSpec refSpec
  rw [← h3K_eq_h3R]
  exact out_eq _ _ _

end Cert.Sage

end
-- ==== Proof.lean ====
/-
  A three-layer mean-aggregating graph network with a linear read-out: the Pallas program against its jnp
  reference, over the extended reals.

  Both programs compute the same host operations around the dense part: the in-degree reciprocals, and per
  layer the neighbour mean (gather the source rows, add them into the target rows, scale). The dense part of a
  layer is max((a·WlT + h·WrT) + b, 0) in the kernel and max((a·Wlᵀ + b) + h·Wrᵀ, 0) in the reference: the same
  sums of products with the additions regrouped (addition of extended reals is commutative and associative, so
  no finiteness is used). The read-out multiplies by the weight padded with zero columns and keeps the unpadded
  columns, which is the unpadded product.

  * `Spec`: the layer and the read-out as whole-array functions; the two programs' results as compositions.
  * `Block0 … Block3`: each region's output array is the layer (read-out) function of the region's entry contents.
  * `KernelRun`, `KVHost`, `KernelValue`: the kernel program's run with every buffer named, and the result buffer
    read back through the segment boundaries to `kernelSpec` of the arguments.
  * `RefValue`: the reference run's term is `refSpec` of the arguments.
  * `LayerAlg`, `OutAlg`, `SpecEq`: `kernelSpec = refSpec`.
-/
import proofs.«112709_j37056977830621_1_alg».proof.Defs
import proofs.«112709_j37056977830621_1_alg».proof.Proof.Gen.Kernel
import proofs.«112709_j37056977830621_1_alg».proof.Proof.Gen.Kernel.Frame
import proofs.«112709_j37056977830621_1_alg».proof.Proof.Gen.KernelIdeal
import proofs.«112709_j37056977830621_1_alg».proof.Proof.Gen.KernelIdeal.Frame
import proofs.«112709_j37056977830621_1_alg».proof.Proof.Gen.ReferenceIdeal
import proofs.«112709_j37056977830621_1_alg».proof.Proof.Gen.ReferenceIdeal.Run
import proofs.«112709_j37056977830621_1_alg».proof.Proof.Gen.Pre_finite_inputs
import proofs.«112709_j37056977830621_1_alg».proof.Proof.Spec
import proofs.«112709_j37056977830621_1_alg».proof.Proof.Block0
import proofs.«112709_j37056977830621_1_alg».proof.Proof.Block1
import proofs.«112709_j37056977830621_1_alg».proof.Proof.Block2
import proofs.«112709_j37056977830621_1_alg».proof.Proof.Block3
import proofs.«112709_j37056977830621_1_alg».proof.Proof.KernelRun
import proofs.«112709_j37056977830621_1_alg».proof.Proof.KernelValue
import proofs.«112709_j37056977830621_1_alg».proof.Proof.RefValue
import proofs.«112709_j37056977830621_1_alg».proof.Proof.SpecEq
import Idealize.ShloMosaic.Adequacy
import Idealize.ShloMosaic.Init

noncomputable section

namespace Cert.Proof

open Idealize.ShloMosaic Idealize.ShloMosaic.TcCoe Idealize.SL.Sem

/-- The word-level kernel program runs and leaves its arguments unchanged. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference runs and leaves its arguments unchanged: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- The kernel program ends with its result at `kernelSpec` of the arguments, the reference with its result at
    `refSpec` of arguments that agree with them, and the two specifications are one function. -/
theorem algebraic : Cert.algebraic_KernelIdeal_ReferenceIdeal := by
  intro m ρ m' ρ' _ hagree
  refine ⟨fun c => Cert.Sage.kernelSpec
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6)), ?_, ?_⟩
  · refine (θ_run Cert.KernelIdeal.defs _ _).mono (fun r h c => ⟨?_, ?_, ?_, ?_, ?_, ?_, ?_, ?_⟩) (Cert.Sage.run_named (F := Ideal) m ρ)
    · exact (h c Cert.KernelIdeal.main_v82 (by decide)).trans
        (Cert.Sage.result_at_end m ρ c Cert.Sage.arr0 Cert.Sage.arr1 Cert.Sage.arr2 Cert.Sage.arr3)
    · exact (h c Cert.KernelIdeal.main_arg0 (by decide)).trans (Cert.KernelIdeal.Gen.W9_main_arg0 m ρ c)
    · exact (h c Cert.KernelIdeal.main_arg1 (by decide)).trans (Cert.KernelIdeal.Gen.W9_main_arg1 m ρ c)
    · exact (h c Cert.KernelIdeal.main_arg2 (by decide)).trans (Cert.KernelIdeal.Gen.W9_main_arg2 m ρ c)
    · exact (h c Cert.KernelIdeal.main_arg3 (by decide)).trans (Cert.KernelIdeal.Gen.W9_main_arg3 m ρ c)
    · exact (h c Cert.KernelIdeal.main_arg4 (by decide)).trans (Cert.KernelIdeal.Gen.W9_main_arg4 m ρ c)
    · exact (h c Cert.KernelIdeal.main_arg5 (by decide)).trans (Cert.KernelIdeal.Gen.W9_main_arg5 m ρ c)
    · exact (h c Cert.KernelIdeal.main_arg6 (by decide)).trans (Cert.KernelIdeal.Gen.W9_main_arg6 m ρ c)
  · refine (θ_run Cert.ReferenceIdeal.defs _ _).mono (fun r h c => ⟨(h c).1.trans ?_, (h c).2⟩)
      (Cert.ReferenceIdeal.Value.run (F := Ideal) m' ρ')
    rw [Cert.Sage.ref_result m' c, (hagree c).1, (hagree c).2.1, (hagree c).2.2.1, (hagree c).2.2.2.1,
      (hagree c).2.2.2.2.1, (hagree c).2.2.2.2.2.1, (hagree c).2.2.2.2.2.2]
    exact (Cert.Sage.kernelSpec_eq_refSpec _ _ _ _ _ _ _).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
